-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S16x3x64x1024 : Shape := ⟨4, ![16, 3, 64, 1024]⟩
abbrev S3x16x64x1024 : Shape := ⟨4, ![3, 16, 64, 1024]⟩
abbrev S16x3x64 : Shape := ⟨3, ![16, 3, 64]⟩
abbrev S3x16x64 : Shape := ⟨3, ![3, 16, 64]⟩
abbrev S1024x3072 : Shape := ⟨2, ![1024, 3072]⟩
abbrev S1x3072 : Shape := ⟨2, ![1, 3072]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x2x64 : Shape := ⟨3, ![512, 2, 64]⟩
abbrev S2048x2x64 : Shape := ⟨3, ![2048, 2, 64]⟩
abbrev S512x1x64 : Shape := ⟨3, ![512, 1, 64]⟩
abbrev S512x64 : Shape := ⟨2, ![512, 64]⟩
abbrev S2048x1x64 : Shape := ⟨3, ![2048, 1, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S64x512 : Shape := ⟨2, ![64, 512]⟩
abbrev S1x1024 : Shape := ⟨2, ![1, 1024]⟩

abbrev nBuf : Space → Nat
  | .hbm => 24
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S16x3x64x1024, .f32⟩
  | .hbm, ⟨6, _⟩ => ⟨S3x16x64x1024, .f32⟩
  | .hbm, ⟨7, _⟩ => ⟨S3072x1024, .f32⟩
  | .hbm, ⟨8, _⟩ => ⟨S16x3x64, .f32⟩
  | .hbm, ⟨9, _⟩ => ⟨S3x16x64, .f32⟩
  | .hbm, ⟨10, _⟩ => ⟨S3072, .f32⟩
  | .hbm, ⟨11, _⟩ => ⟨S1024x3072, .f32⟩
  | .hbm, ⟨12, _⟩ => ⟨S1024x3072, .bf16⟩
  | .hbm, ⟨13, _⟩ => ⟨S1x3072, .f32⟩
  | .hbm, ⟨14, _⟩ => ⟨S8192x1024, .f32⟩
  | .hbm, ⟨15, _⟩ => ⟨S8192x3072, .bf16⟩
  | .hbm, ⟨16, _⟩ => ⟨S4x2048x3072, .bf16⟩
  | .hbm, ⟨17, _⟩ => ⟨S4x2048x1024, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S8192x1024, .bf16⟩
  | .hbm, ⟨22, _⟩ => ⟨S8192x1024, .f32⟩
  | .hbm, ⟨23, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x512x128, .bf16⟩
  | .local _ .vmem, ⟨13, _⟩ => ⟨S1x512x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S3072x1024_S16x3x64x1024 : S3072x1024.ShapeCasts S16x3x64x1024
  transposes_S16x3x64x1024_S3x16x64x1024_1_0_2_3 : S16x3x64x1024.Transposes [1, 0, 2, 3] S3x16x64x1024
  shapeCasts_S3x16x64x1024_S3072x1024 : S3x16x64x1024.ShapeCasts S3072x1024
  shapeCasts_S3072_S16x3x64 : S3072.ShapeCasts S16x3x64
  transposes_S16x3x64_S3x16x64_1_0_2 : S16x3x64.Transposes [1, 0, 2] S3x16x64
  shapeCasts_S3x16x64_S3072 : S3x16x64.ShapeCasts S3072
  transposes_S3072x1024_S1024x3072_1_0 : S3072x1024.Transposes [1, 0] S1024x3072
  bitsLt_bf16_f32 : FTy.bits .bf16 < FTy.bits .f32
  shapeCasts_S3072_S1x3072 : S3072.ShapeCasts S1x3072
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S512x128_S512x2x64 : S512x128.ShapeCasts S512x2x64
  shapeCasts_S2048x128_S2048x2x64 : S2048x128.ShapeCasts S2048x2x64
  slices_S512x2x64_o0_0_0_S512x1x64 : S512x2x64.Slices ![0, 0, 0] S512x1x64
  shapeCasts_S512x1x64_S512x64 : S512x1x64.ShapeCasts S512x64
  slices_S2048x2x64_o0_0_0_S2048x1x64 : S2048x2x64.Slices ![0, 0, 0] S2048x1x64
  shapeCasts_S2048x1x64_S2048x64 : S2048x1x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  transposes_S512x2048_p1_0_S2048x512 : S512x2048.Transposes [1, 0] S2048x512
  transposes_S64x512_p1_0_S512x64 : S64x512.Transposes [1, 0] S512x64
  slices_S512x2x64_o0_1_0_S512x1x64 : S512x2x64.Slices ![0, 1, 0] S512x1x64
  slices_S2048x2x64_o0_1_0_S2048x1x64 : S2048x2x64.Slices ![0, 1, 0] S2048x1x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S64x2048_S2048x512_S64x512_1_0_0_1_n_n_wf : DotDims.WF S64x2048 S2048x512 S64x512 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x3072.size a
  hwx1_0 : ∀ i : grid1.Coords, EltTy.bits .bf16 = 32 ∨ (Rect.block (s := S4x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x3072.size a
  hwx1_1 : ∀ i : grid1.Coords, EltTy.bits .bf16 = 32 ∨ (Rect.block (s := S4x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x3072.size a
  hwx1_2 : ∀ i : grid1.Coords, EltTy.bits .bf16 = 32 ∨ (Rect.block (s := S4x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v9) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x16x192, .f32⟩
  | .hbm, ⟨10, _⟩ => ⟨S4x16x2048x192, .f32⟩
  | .hbm, ⟨11, _⟩ => ⟨S4x16x2048x64, .f32⟩
  | .hbm, ⟨12, _⟩ => ⟨S4x16x2048x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | .hbm, ⟨33, _⟩ => ⟨S4x2048x16x64, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.FrmBRegion0.lean ====
/-
  The first kernel region (the fused projection, a 512-row tile of the flattened batch per grid point): what its body
  leaves in its output tile as a function of the three input tiles, the body's run on its staging buffers, and the
  pipeline's proof data and body obligation, at any contents `V` of the core's buffers on entry and at any float
  instance.
-/
import proofs.«166842_j9775345565972_2_alg».proof.Proof.Gen.Kernel.Launch
import proofs.«166842_j9775345565972_2_alg».proof.Proof.Gen.Kernel.Skeleton
import proofs.«166842_j9775345565972_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    not (an unfetched window's block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole staging buffer. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- What the body leaves in the output window's staging buffer, from the three input blocks: its one store, of the
    body's arithmetic on what it loaded. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The one store fills the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 4000000 in
/-- The body on whole staging buffers — the inputs' at read contents `x0 x1 x2`, the output's at anything — runs to its
    end, leaves the inputs' as they were and the output's at `out0_3` of the inputs'. -/
theorem sound_kernel0 (c : Dev nD) (E : Set ℕ) (i : grid0.Coords)
    (a0 : Memref sig .tc .vmem S512x1024 .f32) (h0 : a0.IsWhole) (a1 : Memref sig .tc .vmem S1024x3072 .bf16) (h1 : a1.IsWhole)
    (a2 : Memref sig .tc .vmem S1x3072 .f32) (h2 : a2.IsWhole) (a3 : Memref sig .tc .vmem S512x3072 .bf16) (h3 : a3.IsWhole)
    (x0 : Vec F S512x1024 .f32) (x1 : Vec F S1024x3072 .bf16) (x2 : Vec F S1x3072 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0_3 x0 x1 x2)) -∗ K ⟨⟩))
      ⊢ wp frame (wpE (defs₀ (F := F)) Variants.none c none) E (cc0__matmul_resident_kernel i a0 h0 a1 h1 a2 h2 a3 h3) K := by
  simp only [cc0__matmul_resident_kernel_eq_skeleton]; unfold cc0__matmul_resident_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body at point `t` each
    input's buffer still at its block and the output's at `out0_3` of the input blocks; nothing kept between points
    beyond the scoped rest and the generator register; nothing owed. `q` deals the arrays' shares among the windows. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

theorem A_eq0 (q : Fin cfg0.W → PosShare TreeShare) (c : Dev nD) (w : Fin cfg0.W) : (dat0 V q c).A w = V c (Pipeline.arrRef spec0 w) := by
  dsimp only [dat0]
theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = iblk0 V c 2 t := by dsimp only [dat0]
theorem after0_3 (q : Fin cfg0.W → PosShare TreeShare) (c : Dev nD) (t : Fin cfg0.N) :
    (dat0 V q c).after 3 t = out0_3 (iblk0 V c 0 t) (iblk0 V c 1 t) (iblk0 V c 2 t) := by dsimp only [dat0]

theorem before0_0 (q : Fin cfg0.W → PosShare TreeShare) (c : Dev nD) (t : Fin cfg0.N) (d) : (dat0 V q c).before 0 t d = iblk0 V c 0 t :=
  before0_0_of V (dat0 V q c) (A_eq0 V q c 0) (after0_0 V q c) t d
theorem before0_1 (q : Fin cfg0.W → PosShare TreeShare) (c : Dev nD) (t : Fin cfg0.N) (d) : (dat0 V q c).before 1 t d = iblk0 V c 1 t :=
  before0_1_of V (dat0 V q c) (A_eq0 V q c 1) (after0_1 V q c) t d
theorem before0_2 (q : Fin cfg0.W → PosShare TreeShare) (c : Dev nD) (t : Fin cfg0.N) (d) : (dat0 V q c).before 2 t d = iblk0 V c 2 t :=
  before0_2_of V (dat0 V q c) (A_eq0 V q c 2) (after0_2 V q c) t d

/-- What the body is called with at point `t`, the windows one by one, -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (q : Fin cfg0.W → PosShare TreeShare) (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (q : Fin cfg0.W → PosShare TreeShare) (c : Dev nD) : BodyObligation (dat0 (F := F) V q c) (defs₀ (F := F)) Variants.none () Set.univ := fun t => by
  rw [bigSep_W0, bigSep_W0]
  exact sound_body0 V q c t

end Region0

end Cert.Kernel.Frm

end
-- ==== Proof.FrmBRegion1.lean ====
/-
  The second kernel region (attention for one block of 512 query tokens and one pair of heads per grid point, the keys
  and values of the whole sequence beside it): what its body leaves in its output tile as a function of the three
  input tiles, the body's run on its staging buffers, and the pipeline's proof data and body obligation, at any
  contents `V` of the core's buffers on entry and at any float instance. The three input windows read one array.
-/
import proofs.«166842_j9775345565972_2_alg».proof.Proof.Gen.Kernel.Launch
import proofs.«166842_j9775345565972_2_alg».proof.Proof.Gen.Kernel.Skeleton
import proofs.«166842_j9775345565972_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there or
    not (an unfetched window's block index has not moved since the last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: each the whole staging buffer. -/
abbrev r1_0 : Rect S1x512x128 := Rect.unit (s := S1x512x128) ![0, 0, 0] S1x512x128.size inb_S1x512x128_S1x512x128_0_0_0
abbrev r1_1 : Rect S1x2048x128 := Rect.unit (s := S1x2048x128) ![0, 0, 0] S1x2048x128.size inb_S1x2048x128_S1x2048x128_0_0_0
abbrev r1_2 : Rect S1x2048x128 := Rect.unit (s := S1x2048x128) ![0, 0, 0] S1x2048x128.size inb_S1x2048x128_S1x2048x128_0_0_0
abbrev r1_3 : Rect S1x512x128 := Rect.unit (s := S1x512x128) ![0, 0, 0] S1x512x128.size inb_S1x512x128_S1x512x128_0_0_0

/-- What the body leaves in the output window's staging buffer, from the three input blocks: its one store, of the
    body's arithmetic on what it loaded. -/
def out1_3 (x0 : Vec F S1x512x128 .bf16) (x1 : Vec F S1x2048x128 .bf16) (x2 : Vec F S1x2048x128 .bf16) : Vec F S1x512x128 .bf16 :=
  View.canon [⟨r1_3, k1_pay1 (k1_pay5 (View.ld x0 r1_0) (View.ld x1 r1_1) (View.ld x2 r1_2)) (k1_pay6 (View.ld x2 r1_2)) (k1_pay7 (View.ld x0 r1_0) (View.ld x1 r1_1)) (Scalar.ofBits .f32 0x3E000000#32)⟩]

/-- The one store fills the buffer. -/
theorem cover1_3 (p0 : Vec F S1x512x128 .bf16) (y : S1x512x128.Idx) :
    ∃ pc ∈ ([⟨r1_3, p0⟩] : List (View.Piece (Elt F) S1x512x128 .bf16)), y ∈ pc.1.set :=
  View.cover_of_tiled [⟨r1_3, p0⟩] S1x512x128.size (by rfl) y

set_option maxHeartbeats 4000000 in
/-- The body on whole staging buffers — the inputs' at read contents `x0 x1 x2`, the output's at anything — runs to its
    end, leaves the inputs' as they were and the output's at `out1_3` of the inputs'. -/
theorem sound_kernel1 (c : Dev nD) (E : Set ℕ) (i : grid1.Coords)
    (a0 : Memref sig .tc .vmem S1x512x128 .bf16) (h0 : a0.IsWhole) (a1 : Memref sig .tc .vmem S1x2048x128 .bf16) (h1 : a1.IsWhole)
    (a2 : Memref sig .tc .vmem S1x2048x128 .bf16) (h2 : a2.IsWhole) (a3 : Memref sig .tc .vmem S1x512x128 .bf16) (h3 : a3.IsWhole)
    (x0 : Vec F S1x512x128 .bf16) (x1 : Vec F S1x2048x128 .bf16) (x2 : Vec F S1x2048x128 .bf16) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out1_3 x0 x1 x2)) -∗ K ⟨⟩))
      ⊢ wp frame (wpE (defs₀ (F := F)) Variants.none c none) E (cc1__attn_kernel i a0 h0 a1 h1 a2 h2 a3 h3) K := by
  simp only [cc1__attn_kernel_eq_skeleton]; unfold cc1__attn_kernel_skel; simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t` each
    input's buffer still at its block and the output's at `out1_3` of the input blocks; nothing kept between points
    beyond the scoped rest and the generator register; nothing owed. `q` deals the arrays' shares among the windows. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

theorem A_eq1 (q : Fin cfg1.W → PosShare TreeShare) (c : Dev nD) (w : Fin cfg1.W) : (dat1 V q c).A w = V c (Pipeline.arrRef spec1 w) := by
  dsimp only [dat1]
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) :
    (dat1 V q c).after 3 t = out1_3 (iblk1 V c 0 t) (iblk1 V c 1 t) (iblk1 V c 2 t) := by dsimp only [dat1]

theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

end Region1

end Cert.Kernel.Frm

end
-- ==== Proof.FrmBShare1.lean ====
/-
  The attention region's three input windows read ONE array (the fused projection, at three different column
  blocks). The core holds that array whole; on entry its full share is dealt to the three windows — a half and two
  quarters —, and on exit the three parts, still holding the contents they were dealt, are joined back. The output
  window's array is held whole throughout.
-/
import proofs.«166842_j9775345565972_2_alg».proof.Proof.FrmBRegion1

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- How the shared array's full share is dealt: a half to the query window, a quarter each to the key and value
    windows (the output window's entry is not read: an output's array is held whole). -/
def q1 : Fin cfg1.W → PosShare TreeShare
  | ⟨0, _⟩ => fullShare.left
  | ⟨1, _⟩ => fullShare.right.left
  | ⟨2, _⟩ => fullShare.right.right
  | _ => fullShare

section
variable (W : Dev nD → Valuation τ sig (Elt F))

/-- The two distinct buffers behind the four windows' arrays. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v11) ↦{fullShare} V main_v11) ∗ (((c : Thread nD τ).loc main_v12) ↦{fullShare} V main_v12)) := by
  unfold Pipeline.arrBufs
  rw [show Finset.univ.image (Pipeline.arrRef spec1) = {main_v11, main_v12} from by decide,
    BI.bigSep_insert (by decide), BI.bigSep_singleton]
  rfl

/-- The pipeline's four arrays, one by one, each at its share. -/
theorem arrays1_eq (c : Dev nD) (G : (w : Fin cfg1.W) → Buf (Elt F) ((cfg1.win w).arr.view.loc (c : Thread nD τ))) :
    ((dat1 (fun c b => W c b) q1 c).arrays G : sProp 𝕄) = iprop(
      (((c : Thread nD τ).loc main_v11) ↦{fullShare.left} G 0) ∗ (((c : Thread nD τ).loc main_v11) ↦{fullShare.right.left} G 1)
      ∗ (((c : Thread nD τ).loc main_v11) ↦{fullShare.right.right} G 2) ∗ (((c : Thread nD τ).loc main_v12) ↦{fullShare} G 3)) := by
  unfold Dat.arrays
  rw [bigSep_W1, (arr_whole1 0).set_eq_univ, (arr_whole1 3).set_eq_univ]
  rfl

/-- ENTRY: the core's unscoped buffers are the pipeline's arrays at their entry contents, the shared one dealt in
    three, and the unscoped rest. -/
theorem entry1 (c : Dev nD) :
    (StableHlo.held (c : Thread nD τ) (Pipeline.ucRefs τ sig) (W c) : sProp 𝕄)
      ⊢ iprop((dat1 (fun c b => W c b) q1 c).arrays ((dat1 (fun c b => W c b) q1 c).arrAt · 0)
          ∗ Pipeline.unscopedRest (Ix := Unit) (Name := ℕ) (U := UR sig nD τ) (Lvl := ℕ) spec1 c (fun b => W c b)) := by
  have hs : (unscopedBufs c (fun b => W c b) : sProp 𝕄)
      = iprop(Pipeline.arrBufs spec1 c (fun b => W c b) ∗ Pipeline.unscopedRest spec1 c (fun b => W c b)) :=
    Pipeline.unscopedBufs_split₀ cfgs 1 winFacts₀1.arr_unscoped c _
  rw [← Pipeline.unscopedBufs_held c (W c), hs, arrBufs1_eq, arrays1_eq]
  iintro ⟨⟨H11, H12⟩, Hrest⟩
  ihave H' := (pointsTo_share (PosShare.mem_left_op_right fullShare)).1 $$ H11
  icases H' with ⟨Ha, Hbc⟩
  ihave H'' := (pointsTo_share (PosShare.mem_left_op_right fullShare.right)).1 $$ Hbc
  icases H'' with ⟨Hb, Hc⟩
  isplitr [Hrest]
  · isplitl [Ha]; · iexact Ha
    isplitl [Hb]; · iexact Hb
    isplitl [Hc]; · iexact Hc
    iexact H12
  · iexact Hrest

/-- EXIT: the arrays at what the pipeline leaves — the shared input as dealt, the output at its write-backs —
    and the unscoped rest are the core's unscoped buffers at any valuation that has the output's array there and
    agrees with the entry one elsewhere. -/
theorem exit1 (c : Dev nD) (W' : Valuation τ sig (Elt F))
    (h11 : W' (Proc.devRef .tc main_v11) = W c (Proc.devRef .tc main_v11))
    (h12 : W' (Proc.devRef .tc main_v12) = (dat1 (fun c b => W c b) q1 c).arrAt 3 cfg1.N)
    (hrest : ∀ b : Ref sig .tc, b ∉ Finset.univ.image (Pipeline.arrRef spec1) → W' (Proc.devRef .tc b) = W c (Proc.devRef .tc b)) :
    iprop((dat1 (fun c b => W c b) q1 c).arrays ((dat1 (fun c b => W c b) q1 c).arrAt · cfg1.N)
        ∗ Pipeline.unscopedRest (Ix := Unit) (Name := ℕ) (U := UR sig nD τ) (Lvl := ℕ) spec1 c (fun b => W c b))
      ⊢ (StableHlo.held (c : Thread nD τ) (Pipeline.ucRefs τ sig) W' : sProp 𝕄) := by
  have e0 : (dat1 (fun c b => W c b) q1 c).arrAt 0 cfg1.N = W c (Proc.devRef .tc main_v11) :=
    ((dat1 (fun c b => W c b) q1 c).arrAt_in 0 rfl _).trans (A_eq1 _ q1 c 0)
  have e1 : (dat1 (fun c b => W c b) q1 c).arrAt 1 cfg1.N = W c (Proc.devRef .tc main_v11) :=
    ((dat1 (fun c b => W c b) q1 c).arrAt_in 1 rfl _).trans (A_eq1 _ q1 c 1)
  have e2 : (dat1 (fun c b => W c b) q1 c).arrAt 2 cfg1.N = W c (Proc.devRef .tc main_v11) :=
    ((dat1 (fun c b => W c b) q1 c).arrAt_in 2 rfl _).trans (A_eq1 _ q1 c 2)
  have hR : (Pipeline.unscopedRest (Ix := Unit) (Name := ℕ) (U := UR sig nD τ) (Lvl := ℕ) spec1 c (fun b => W' b) : sProp 𝕄)
      = Pipeline.unscopedRest spec1 c (fun b => W c b) := by
    unfold Pipeline.unscopedRest
    exact BI.bigSep_congr fun b hb => by dsimp only; rw [hrest b (Finset.mem_sdiff.mp hb).2]
  have hs : (unscopedBufs c (fun b => W' b) : sProp 𝕄)
      = iprop(Pipeline.arrBufs spec1 c (fun b => W' b) ∗ Pipeline.unscopedRest spec1 c (fun b => W' b)) :=
    Pipeline.unscopedBufs_split₀ cfgs 1 winFacts₀1.arr_unscoped c _
  rw [← Pipeline.unscopedBufs_held c W', hs, arrBufs1_eq, arrays1_eq, hR]
  dsimp only
  rw [e0, e1, e2, h11, h12]
  iintro ⟨⟨Ha, Hb, Hc, Hd⟩, Hrest⟩
  isplitr [Hrest]
  · isplitr [Hd]
    · iapply (pointsTo_share (PosShare.mem_left_op_right fullShare)).2
      isplitl [Ha]; · iexact Ha
      iapply (pointsTo_share (PosShare.mem_left_op_right fullShare.right)).2
      isplitl [Hb]; · iexact Hb
      iexact Hc
    · iexact Hd
  · iexact Hrest

end

end Cert.Kernel.Frm

end
-- ==== Proof.FrmBRegion2.lean ====
/-
  The third kernel region (the output projection, a 512-row tile of the flattened batch per grid point): what its
  body leaves in its output tile as a function of the three input tiles, the body's run on its staging buffers, and
  the pipeline's proof data and body obligation, at any contents `V` of the core's buffers on entry and at any float
  instance.
-/
import proofs.«166842_j9775345565972_2_alg».proof.Proof.Gen.Kernel.Launch
import proofs.«166842_j9775345565972_2_alg».proof.Proof.Gen.Kernel.Skeleton
import proofs.«166842_j9775345565972_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the pipeline fetched it there or
    not (an unfetched window's block index has not moved since the last fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each the whole staging buffer. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-- What the body leaves in the output window's staging buffer, from the three input blocks: its one store, of the
    body's arithmetic on what it loaded. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store fills the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 4000000 in
/-- The body on whole staging buffers — the inputs' at read contents `x0 x1 x2`, the output's at anything — runs to its
    end, leaves the inputs' as they were and the output's at `out2_3` of the inputs'. -/
theorem sound_kernel2 (c : Dev nD) (E : Set ℕ) (i : grid2.Coords)
    (a0 : Memref sig .tc .vmem S512x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S512x1024 .f32) (h3 : a3.IsWhole)
    (x0 : Vec F S512x1024 .bf16) (x1 : Vec F S1024x1024 .bf16) (x2 : Vec F S1x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out2_3 x0 x1 x2)) -∗ K ⟨⟩))
      ⊢ wp frame (wpE (defs₀ (F := F)) Variants.none c none) E (cc2__matmul_resident_kernel i a0 h0 a1 h1 a2 h2 a3 h3) K := by
  simp only [cc2__matmul_resident_kernel_eq_skeleton]; unfold cc2__matmul_resident_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t` each
    input's buffer still at its block and the output's at `out2_3` of the input blocks; nothing kept between points
    beyond the scoped rest and the generator register; nothing owed. `q` deals the arrays' shares among the windows. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := q
  owed _ := 0

theorem A_eq2 (q : Fin cfg2.W → PosShare TreeShare) (c : Dev nD) (w : Fin cfg2.W) : (dat2 V q c).A w = V c (Pipeline.arrRef spec2 w) := by
  dsimp only [dat2]
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) :
    (dat2 V q c).after 3 t = out2_3 (iblk2 V c 0 t) (iblk2 V c 1 t) (iblk2 V c 2 t) := by dsimp only [dat2]

theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t))

theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2]
  rw [show (dat2 V q c).Φ t.succ = (dat2 V q c).Φ t.castSucc from rfl,
    show (dat2 V q c).owesAt () t.succ = (dat2 V q c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (q : Fin cfg2.W → PosShare TreeShare) (c : Dev nD) : BodyObligation (dat2 (F := F) V q c) (defs₀ (F := F)) Variants.none () Set.univ := fun t => by
  rw [bigSep_W2, bigSep_W2]
  exact sound_body2 V q c t

end Region2

end Cert.Kernel.Frm

end
-- ==== Proof.FrmBRun.lean ====
/-
  The whole program as a run: @main is four stretches of host operations around three kernel regions. The contents
  of the core's unscoped buffers at each of the eight boundaries are a fold from the launch memory — a host stretch
  applies its operations, a region overwrites its output window's array with what its write-backs leave —, and every
  weakly fair execution terminates, without a fault, in a memory holding exactly the last of these. No argument array
  is written on the way, so each ends as launched.
-/
import proofs.«166842_j9775345565972_2_alg».proof.Proof.FrmBRegion0
import proofs.«166842_j9775345565972_2_alg».proof.Proof.FrmBShare1
import proofs.«166842_j9775345565972_2_alg».proof.Proof.FrmBRegion2
import proofs.«166842_j9775345565972_2_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every window of a region whose arrays are distinct holds its array whole. -/
abbrev qFull : Fin 4 → PosShare TreeShare := fun _ => fullShare

/-! ## The buffers' contents at the eight boundaries -/

/-- At launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its output's array at what its write-backs leave, every other buffer as entered. -/
def W2 (c : Dev nD) : Valuation τ sig (Elt F) :=
  Pipeline.withArrays spec0 c (W1 m c) fun w => (dat0 (V1 m) qFull c).arrAt w cfg0.N
theorem W2_arr (c : Dev nD) (w : Fin cfg0.W) :
    W2 m c (Proc.devRef .tc (Pipeline.arrRef spec0 w)) = (dat0 (V1 m) qFull c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: its output's array overwritten, the shared input array and every other buffer as entered. -/
def W4 (c : Dev nD) : Valuation τ sig (Elt F) :=
  Function.update (W3 m c) (Proc.devRef .tc main_v12) ((dat1 (V3 m) q1 c).arrAt 3 cfg1.N)
theorem W4_out (c : Dev nD) : W4 m c (Proc.devRef .tc main_v12) = (dat1 (V3 m) q1 c).arrAt 3 cfg1.N := by
  unfold W4; exact Function.update_self ..
theorem W4_of_ne (c : Dev nD) (b : Ref sig .tc) (hb : b ≠ main_v12) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b
/-- After the third host stretch (the third region's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third region. -/
def W6 (c : Dev nD) : Valuation τ sig (Elt F) :=
  Pipeline.withArrays spec2 c (W5 m c) fun w => (dat2 (V5 m) qFull c).arrAt w cfg2.N
theorem W6_arr (c : Dev nD) (w : Fin cfg2.W) :
    W6 m c (Proc.devRef .tc (Pipeline.arrRef spec2 w)) = (dat2 (V5 m) qFull c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- After the last host stretch: what the program ends with. -/
abbrev W7 : Dev nD → Valuation τ sig (Elt F) := fun c => StableHlo.after hostOps3 (W6 m c)

theorem hF0 (c : Dev nD) (w : Fin cfg0.W) : (dat0 (V1 m) qFull c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF2 (c : Dev nD) (w : Fin cfg2.W) : (dat2 (V5 m) qFull c).arrAt w cfg2.N = V6 m c (Pipeline.arrRef spec2 w) := (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## No stretch and no region writes an argument -/

theorem W_keeps (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : r ≠ main_v12) (a2 : ∀ w, Pipeline.arrRef spec2 w ≠ r) :
    W7 m c (Proc.devRef .tc r) = m ((c : Thread nD τ).loc r) :=
  (StableHlo.after_of_writes_sub hostOps3 _ hostOps3_writes h3).trans <| (W6_of_ne m c r a2).trans <|
  (StableHlo.after_of_writes_sub hostOps2 _ hostOps2_writes h2).trans <| (W4_of_ne m c r a1).trans <|
  (StableHlo.after_of_writes_sub hostOps1 _ hostOps1_writes h1).trans <| (W2_of_ne m c r a0).trans <|
  (StableHlo.after_of_writes_sub hostOps0 _ hostOps0_writes h0).trans rfl

theorem W7_main_arg0 (c : Dev nD) : W7 m c (Proc.devRef .tc main_arg0) = m ((c : Thread nD τ).loc main_arg0) :=
  W_keeps m c main_arg0 (by decide) (by decide) (by decide) (by decide) (by decide) (by decide) (by decide)
theorem W7_main_arg1 (c : Dev nD) : W7 m c (Proc.devRef .tc main_arg1) = m ((c : Thread nD τ).loc main_arg1) :=
  W_keeps m c main_arg1 (by decide) (by decide) (by decide) (by decide) (by decide) (by decide) (by decide)
theorem W7_main_arg2 (c : Dev nD) : W7 m c (Proc.devRef .tc main_arg2) = m ((c : Thread nD τ).loc main_arg2) :=
  W_keeps m c main_arg2 (by decide) (by decide) (by decide) (by decide) (by decide) (by decide) (by decide)
theorem W7_main_arg3 (c : Dev nD) : W7 m c (Proc.devRef .tc main_arg3) = m ((c : Thread nD τ).loc main_arg3) :=
  W_keeps m c main_arg3 (by decide) (by decide) (by decide) (by decide) (by decide) (by decide) (by decide)
theorem W7_main_arg4 (c : Dev nD) : W7 m c (Proc.devRef .tc main_arg4) = m ((c : Thread nD τ).loc main_arg4) :=
  W_keeps m c main_arg4 (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) qFull c
  | ⟨1, _⟩ => fun c => dat1 (V3 m) q1 c
  | ⟨2, _⟩ => fun c => dat2 (V5 m) qFull c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- The first region: entered from the buffers at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) qFull c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the buffers at `W3`, left at `W4`; the shared input array dealt to its three
    windows on entry and joined back on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) q1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0)
          ∗ Pipeline.unscopedRest (Ix := Unit) (Name := ℕ) (U := UR sig nD τ) (Lvl := ℕ) spec1 c (V3 m c)) := entry1 (W3 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (StableHlo.held (c : Thread nD τ) (Pipeline.ucRefs τ sig) (W4 m c) : sProp 𝕄) :=
      exit1 (W3 m) c (W4 m c) (W4_of_ne m c main_v11 (by decide)) (W4_out m c)
        (fun b hb => W4_of_ne m c b fun e => hb (by rw [e]; decide))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The third region: entered from the buffers at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) qFull c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
/-- THE RUN: from any memory with zero counters, every weakly fair execution of @main terminates, nothing faulting,
    in a memory that holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c =>
      (show (iprop(StableHlo.held (c : Thread nD τ) (Pipeline.ucRefs τ sig) (W7 m c) ∗ R c) : sProp 𝕄)
          ⊢ iprop(Tₙ m c ∗ ∃ W, owes (c : Thread nD τ) (0 : CellTallies nD τ sig Unit) W) from by
        iintro ⟨Hh, Hp, HO⟩
        isplitr [HO]
        · isplitl [Hh]; · iexact Hh
          iexact Hp
        · iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_all m ρ)

end Cert.Kernel.Frm

end
-- ==== Proof.FrmRegion0.lean ====
/-
  The first kernel region (the fused projection, a 512-row tile of the flattened batch per grid point): what its body
  leaves in its output tile as a function of the three input tiles, the body's run on its staging buffers, and the
  pipeline's proof data and body obligation, at any contents `V` of the core's buffers on entry and at any float
  instance.
-/
import proofs.«166842_j9775345565972_2_alg».proof.Proof.Gen.KernelIdeal.Launch
import proofs.«166842_j9775345565972_2_alg».proof.Proof.Gen.KernelIdeal.Skeleton
import proofs.«166842_j9775345565972_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    not (an unfetched window's block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole staging buffer. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- What the body leaves in the output window's staging buffer, from the three input blocks: its one store, of the
    body's arithmetic on what it loaded. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The one store fills the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 4000000 in
/-- The body on whole staging buffers — the inputs' at read contents `x0 x1 x2`, the output's at anything — runs to its
    end, leaves the inputs' as they were and the output's at `out0_3` of the inputs'. -/
theorem sound_kernel0 (c : Dev nD) (E : Set ℕ) (i : grid0.Coords)
    (a0 : Memref sig .tc .vmem S512x1024 .f32) (h0 : a0.IsWhole) (a1 : Memref sig .tc .vmem S1024x3072 .bf16) (h1 : a1.IsWhole)
    (a2 : Memref sig .tc .vmem S1x3072 .f32) (h2 : a2.IsWhole) (a3 : Memref sig .tc .vmem S512x3072 .bf16) (h3 : a3.IsWhole)
    (x0 : Vec F S512x1024 .f32) (x1 : Vec F S1024x3072 .bf16) (x2 : Vec F S1x3072 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0_3 x0 x1 x2)) -∗ K ⟨⟩))
      ⊢ wp frame (wpE (defs₀ (F := F)) Variants.none c none) E (cc0__matmul_resident_kernel i a0 h0 a1 h1 a2 h2 a3 h3) K := by
  simp only [cc0__matmul_resident_kernel_eq_skeleton]; unfold cc0__matmul_resident_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body at point `t` each
    input's buffer still at its block and the output's at `out0_3` of the input blocks; nothing kept between points
    beyond the scoped rest and the generator register; nothing owed. `q` deals the arrays' shares among the windows. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

theorem A_eq0 (q : Fin cfg0.W → PosShare TreeShare) (c : Dev nD) (w : Fin cfg0.W) : (dat0 V q c).A w = V c (Pipeline.arrRef spec0 w) := by
  dsimp only [dat0]
theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = iblk0 V c 2 t := by dsimp only [dat0]
theorem after0_3 (q : Fin cfg0.W → PosShare TreeShare) (c : Dev nD) (t : Fin cfg0.N) :
    (dat0 V q c).after 3 t = out0_3 (iblk0 V c 0 t) (iblk0 V c 1 t) (iblk0 V c 2 t) := by dsimp only [dat0]

theorem before0_0 (q : Fin cfg0.W → PosShare TreeShare) (c : Dev nD) (t : Fin cfg0.N) (d) : (dat0 V q c).before 0 t d = iblk0 V c 0 t :=
  before0_0_of V (dat0 V q c) (A_eq0 V q c 0) (after0_0 V q c) t d
theorem before0_1 (q : Fin cfg0.W → PosShare TreeShare) (c : Dev nD) (t : Fin cfg0.N) (d) : (dat0 V q c).before 1 t d = iblk0 V c 1 t :=
  before0_1_of V (dat0 V q c) (A_eq0 V q c 1) (after0_1 V q c) t d
theorem before0_2 (q : Fin cfg0.W → PosShare TreeShare) (c : Dev nD) (t : Fin cfg0.N) (d) : (dat0 V q c).before 2 t d = iblk0 V c 2 t :=
  before0_2_of V (dat0 V q c) (A_eq0 V q c 2) (after0_2 V q c) t d

/-- What the body is called with at point `t`, the windows one by one, -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (q : Fin cfg0.W → PosShare TreeShare) (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (q : Fin cfg0.W → PosShare TreeShare) (c : Dev nD) : BodyObligation (dat0 (F := F) V q c) (defs₀ (F := F)) Variants.none () Set.univ := fun t => by
  rw [bigSep_W0, bigSep_W0]
  exact sound_body0 V q c t

end Region0

end Cert.KernelIdeal.Frm

end
-- ==== Proof.FrmRegion1.lean ====
/-
  The second kernel region (attention for one block of 512 query tokens and one pair of heads per grid point, the keys
  and values of the whole sequence beside it): what its body leaves in its output tile as a function of the three
  input tiles, the body's run on its staging buffers, and the pipeline's proof data and body obligation, at any
  contents `V` of the core's buffers on entry and at any float instance. The three input windows read one array.
-/
import proofs.«166842_j9775345565972_2_alg».proof.Proof.Gen.KernelIdeal.Launch
import proofs.«166842_j9775345565972_2_alg».proof.Proof.Gen.KernelIdeal.Skeleton
import proofs.«166842_j9775345565972_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there or
    not (an unfetched window's block index has not moved since the last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: each the whole staging buffer. -/
abbrev r1_0 : Rect S1x512x128 := Rect.unit (s := S1x512x128) ![0, 0, 0] S1x512x128.size inb_S1x512x128_S1x512x128_0_0_0
abbrev r1_1 : Rect S1x2048x128 := Rect.unit (s := S1x2048x128) ![0, 0, 0] S1x2048x128.size inb_S1x2048x128_S1x2048x128_0_0_0
abbrev r1_2 : Rect S1x2048x128 := Rect.unit (s := S1x2048x128) ![0, 0, 0] S1x2048x128.size inb_S1x2048x128_S1x2048x128_0_0_0
abbrev r1_3 : Rect S1x512x128 := Rect.unit (s := S1x512x128) ![0, 0, 0] S1x512x128.size inb_S1x512x128_S1x512x128_0_0_0

/-- What the body leaves in the output window's staging buffer, from the three input blocks: its one store, of the
    body's arithmetic on what it loaded. -/
def out1_3 (x0 : Vec F S1x512x128 .bf16) (x1 : Vec F S1x2048x128 .bf16) (x2 : Vec F S1x2048x128 .bf16) : Vec F S1x512x128 .bf16 :=
  View.canon [⟨r1_3, k1_pay1 (k1_pay5 (View.ld x0 r1_0) (View.ld x1 r1_1) (View.ld x2 r1_2)) (k1_pay6 (View.ld x2 r1_2)) (k1_pay7 (View.ld x0 r1_0) (View.ld x1 r1_1)) (Scalar.ofBits .f32 0x3E000000#32)⟩]

/-- The one store fills the buffer. -/
theorem cover1_3 (p0 : Vec F S1x512x128 .bf16) (y : S1x512x128.Idx) :
    ∃ pc ∈ ([⟨r1_3, p0⟩] : List (View.Piece (Elt F) S1x512x128 .bf16)), y ∈ pc.1.set :=
  View.cover_of_tiled [⟨r1_3, p0⟩] S1x512x128.size (by rfl) y

set_option maxHeartbeats 4000000 in
/-- The body on whole staging buffers — the inputs' at read contents `x0 x1 x2`, the output's at anything — runs to its
    end, leaves the inputs' as they were and the output's at `out1_3` of the inputs'. -/
theorem sound_kernel1 (c : Dev nD) (E : Set ℕ) (i : grid1.Coords)
    (a0 : Memref sig .tc .vmem S1x512x128 .bf16) (h0 : a0.IsWhole) (a1 : Memref sig .tc .vmem S1x2048x128 .bf16) (h1 : a1.IsWhole)
    (a2 : Memref sig .tc .vmem S1x2048x128 .bf16) (h2 : a2.IsWhole) (a3 : Memref sig .tc .vmem S1x512x128 .bf16) (h3 : a3.IsWhole)
    (x0 : Vec F S1x512x128 .bf16) (x1 : Vec F S1x2048x128 .bf16) (x2 : Vec F S1x2048x128 .bf16) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out1_3 x0 x1 x2)) -∗ K ⟨⟩))
      ⊢ wp frame (wpE (defs₀ (F := F)) Variants.none c none) E (cc1__attn_kernel i a0 h0 a1 h1 a2 h2 a3 h3) K := by
  simp only [cc1__attn_kernel_eq_skeleton]; unfold cc1__attn_kernel_skel; simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t` each
    input's buffer still at its block and the output's at `out1_3` of the input blocks; nothing kept between points
    beyond the scoped rest and the generator register; nothing owed. `q` deals the arrays' shares among the windows. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

theorem A_eq1 (q : Fin cfg1.W → PosShare TreeShare) (c : Dev nD) (w : Fin cfg1.W) : (dat1 V q c).A w = V c (Pipeline.arrRef spec1 w) := by
  dsimp only [dat1]
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) :
    (dat1 V q c).after 3 t = out1_3 (iblk1 V c 0 t) (iblk1 V c 1 t) (iblk1 V c 2 t) := by dsimp only [dat1]

theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

end Region1

end Cert.KernelIdeal.Frm

end
-- ==== Proof.FrmShare1.lean ====
/-
  The attention region's three input windows read ONE array (the fused projection, at three different column
  blocks). The core holds that array whole; on entry its full share is dealt to the three windows — a half and two
  quarters —, and on exit the three parts, still holding the contents they were dealt, are joined back. The output
  window's array is held whole throughout.
-/
import proofs.«166842_j9775345565972_2_alg».proof.Proof.FrmRegion1

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- How the shared array's full share is dealt: a half to the query window, a quarter each to the key and value
    windows (the output window's entry is not read: an output's array is held whole). -/
def q1 : Fin cfg1.W → PosShare TreeShare
  | ⟨0, _⟩ => fullShare.left
  | ⟨1, _⟩ => fullShare.right.left
  | ⟨2, _⟩ => fullShare.right.right
  | _ => fullShare

section
variable (W : Dev nD → Valuation τ sig (Elt F))

/-- The two distinct buffers behind the four windows' arrays. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v11) ↦{fullShare} V main_v11) ∗ (((c : Thread nD τ).loc main_v12) ↦{fullShare} V main_v12)) := by
  unfold Pipeline.arrBufs
  rw [show Finset.univ.image (Pipeline.arrRef spec1) = {main_v11, main_v12} from by decide,
    BI.bigSep_insert (by decide), BI.bigSep_singleton]
  rfl

/-- The pipeline's four arrays, one by one, each at its share. -/
theorem arrays1_eq (c : Dev nD) (G : (w : Fin cfg1.W) → Buf (Elt F) ((cfg1.win w).arr.view.loc (c : Thread nD τ))) :
    ((dat1 (fun c b => W c b) q1 c).arrays G : sProp 𝕄) = iprop(
      (((c : Thread nD τ).loc main_v11) ↦{fullShare.left} G 0) ∗ (((c : Thread nD τ).loc main_v11) ↦{fullShare.right.left} G 1)
      ∗ (((c : Thread nD τ).loc main_v11) ↦{fullShare.right.right} G 2) ∗ (((c : Thread nD τ).loc main_v12) ↦{fullShare} G 3)) := by
  unfold Dat.arrays
  rw [bigSep_W1, (arr_whole1 0).set_eq_univ, (arr_whole1 3).set_eq_univ]
  rfl

/-- ENTRY: the core's unscoped buffers are the pipeline's arrays at their entry contents, the shared one dealt in
    three, and the unscoped rest. -/
theorem entry1 (c : Dev nD) :
    (StableHlo.held (c : Thread nD τ) (Pipeline.ucRefs τ sig) (W c) : sProp 𝕄)
      ⊢ iprop((dat1 (fun c b => W c b) q1 c).arrays ((dat1 (fun c b => W c b) q1 c).arrAt · 0)
          ∗ Pipeline.unscopedRest (Ix := Unit) (Name := ℕ) (U := UR sig nD τ) (Lvl := ℕ) spec1 c (fun b => W c b)) := by
  have hs : (unscopedBufs c (fun b => W c b) : sProp 𝕄)
      = iprop(Pipeline.arrBufs spec1 c (fun b => W c b) ∗ Pipeline.unscopedRest spec1 c (fun b => W c b)) :=
    Pipeline.unscopedBufs_split₀ cfgs 1 winFacts₀1.arr_unscoped c _
  rw [← Pipeline.unscopedBufs_held c (W c), hs, arrBufs1_eq, arrays1_eq]
  iintro ⟨⟨H11, H12⟩, Hrest⟩
  ihave H' := (pointsTo_share (PosShare.mem_left_op_right fullShare)).1 $$ H11
  icases H' with ⟨Ha, Hbc⟩
  ihave H'' := (pointsTo_share (PosShare.mem_left_op_right fullShare.right)).1 $$ Hbc
  icases H'' with ⟨Hb, Hc⟩
  isplitr [Hrest]
  · isplitl [Ha]; · iexact Ha
    isplitl [Hb]; · iexact Hb
    isplitl [Hc]; · iexact Hc
    iexact H12
  · iexact Hrest

/-- EXIT: the arrays at what the pipeline leaves — the shared input as dealt, the output at its write-backs —
    and the unscoped rest are the core's unscoped buffers at any valuation that has the output's array there and
    agrees with the entry one elsewhere. -/
theorem exit1 (c : Dev nD) (W' : Valuation τ sig (Elt F))
    (h11 : W' (Proc.devRef .tc main_v11) = W c (Proc.devRef .tc main_v11))
    (h12 : W' (Proc.devRef .tc main_v12) = (dat1 (fun c b => W c b) q1 c).arrAt 3 cfg1.N)
    (hrest : ∀ b : Ref sig .tc, b ∉ Finset.univ.image (Pipeline.arrRef spec1) → W' (Proc.devRef .tc b) = W c (Proc.devRef .tc b)) :
    iprop((dat1 (fun c b => W c b) q1 c).arrays ((dat1 (fun c b => W c b) q1 c).arrAt · cfg1.N)
        ∗ Pipeline.unscopedRest (Ix := Unit) (Name := ℕ) (U := UR sig nD τ) (Lvl := ℕ) spec1 c (fun b => W c b))
      ⊢ (StableHlo.held (c : Thread nD τ) (Pipeline.ucRefs τ sig) W' : sProp 𝕄) := by
  have e0 : (dat1 (fun c b => W c b) q1 c).arrAt 0 cfg1.N = W c (Proc.devRef .tc main_v11) :=
    ((dat1 (fun c b => W c b) q1 c).arrAt_in 0 rfl _).trans (A_eq1 _ q1 c 0)
  have e1 : (dat1 (fun c b => W c b) q1 c).arrAt 1 cfg1.N = W c (Proc.devRef .tc main_v11) :=
    ((dat1 (fun c b => W c b) q1 c).arrAt_in 1 rfl _).trans (A_eq1 _ q1 c 1)
  have e2 : (dat1 (fun c b => W c b) q1 c).arrAt 2 cfg1.N = W c (Proc.devRef .tc main_v11) :=
    ((dat1 (fun c b => W c b) q1 c).arrAt_in 2 rfl _).trans (A_eq1 _ q1 c 2)
  have hR : (Pipeline.unscopedRest (Ix := Unit) (Name := ℕ) (U := UR sig nD τ) (Lvl := ℕ) spec1 c (fun b => W' b) : sProp 𝕄)
      = Pipeline.unscopedRest spec1 c (fun b => W c b) := by
    unfold Pipeline.unscopedRest
    exact BI.bigSep_congr fun b hb => by dsimp only; rw [hrest b (Finset.mem_sdiff.mp hb).2]
  have hs : (unscopedBufs c (fun b => W' b) : sProp 𝕄)
      = iprop(Pipeline.arrBufs spec1 c (fun b => W' b) ∗ Pipeline.unscopedRest spec1 c (fun b => W' b)) :=
    Pipeline.unscopedBufs_split₀ cfgs 1 winFacts₀1.arr_unscoped c _
  rw [← Pipeline.unscopedBufs_held c W', hs, arrBufs1_eq, arrays1_eq, hR]
  dsimp only
  rw [e0, e1, e2, h11, h12]
  iintro ⟨⟨Ha, Hb, Hc, Hd⟩, Hrest⟩
  isplitr [Hrest]
  · isplitr [Hd]
    · iapply (pointsTo_share (PosShare.mem_left_op_right fullShare)).2
      isplitl [Ha]; · iexact Ha
      iapply (pointsTo_share (PosShare.mem_left_op_right fullShare.right)).2
      isplitl [Hb]; · iexact Hb
      iexact Hc
    · iexact Hd
  · iexact Hrest

end

end Cert.KernelIdeal.Frm

end
-- ==== Proof.FrmRegion2.lean ====
/-
  The third kernel region (the output projection, a 512-row tile of the flattened batch per grid point): what its
  body leaves in its output tile as a function of the three input tiles, the body's run on its staging buffers, and
  the pipeline's proof data and body obligation, at any contents `V` of the core's buffers on entry and at any float
  instance.
-/
import proofs.«166842_j9775345565972_2_alg».proof.Proof.Gen.KernelIdeal.Launch
import proofs.«166842_j9775345565972_2_alg».proof.Proof.Gen.KernelIdeal.Skeleton
import proofs.«166842_j9775345565972_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the pipeline fetched it there or
    not (an unfetched window's block index has not moved since the last fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each the whole staging buffer. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-- What the body leaves in the output window's staging buffer, from the three input blocks: its one store, of the
    body's arithmetic on what it loaded. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store fills the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 4000000 in
/-- The body on whole staging buffers — the inputs' at read contents `x0 x1 x2`, the output's at anything — runs to its
    end, leaves the inputs' as they were and the output's at `out2_3` of the inputs'. -/
theorem sound_kernel2 (c : Dev nD) (E : Set ℕ) (i : grid2.Coords)
    (a0 : Memref sig .tc .vmem S512x1024 .bf16) (h0 : a0.IsWhole) (a1 : Memref sig .tc .vmem S1024x1024 .bf16) (h1 : a1.IsWhole)
    (a2 : Memref sig .tc .vmem S1x1024 .f32) (h2 : a2.IsWhole) (a3 : Memref sig .tc .vmem S512x1024 .f32) (h3 : a3.IsWhole)
    (x0 : Vec F S512x1024 .bf16) (x1 : Vec F S1024x1024 .bf16) (x2 : Vec F S1x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out2_3 x0 x1 x2)) -∗ K ⟨⟩))
      ⊢ wp frame (wpE (defs₀ (F := F)) Variants.none c none) E (cc2__matmul_resident_kernel i a0 h0 a1 h1 a2 h2 a3 h3) K := by
  simp only [cc2__matmul_resident_kernel_eq_skeleton]; unfold cc2__matmul_resident_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t` each
    input's buffer still at its block and the output's at `out2_3` of the input blocks; nothing kept between points
    beyond the scoped rest and the generator register; nothing owed. `q` deals the arrays' shares among the windows. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := q
  owed _ := 0

theorem A_eq2 (q : Fin cfg2.W → PosShare TreeShare) (c : Dev nD) (w : Fin cfg2.W) : (dat2 V q c).A w = V c (Pipeline.arrRef spec2 w) := by
  dsimp only [dat2]
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) :
    (dat2 V q c).after 3 t = out2_3 (iblk2 V c 0 t) (iblk2 V c 1 t) (iblk2 V c 2 t) := by dsimp only [dat2]

theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t))

theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2]
  rw [show (dat2 V q c).Φ t.succ = (dat2 V q c).Φ t.castSucc from rfl,
    show (dat2 V q c).owesAt () t.succ = (dat2 V q c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (q : Fin cfg2.W → PosShare TreeShare) (c : Dev nD) : BodyObligation (dat2 (F := F) V q c) (defs₀ (F := F)) Variants.none () Set.univ := fun t => by
  rw [bigSep_W2, bigSep_W2]
  exact sound_body2 V q c t

end Region2

end Cert.KernelIdeal.Frm

end
-- ==== Proof.FrmRun.lean ====
/-
  The whole program as a run: @main is four stretches of host operations around three kernel regions. The contents
  of the core's unscoped buffers at each of the eight boundaries are a fold from the launch memory — a host stretch
  applies its operations, a region overwrites its output window's array with what its write-backs leave —, and every
  weakly fair execution terminates, without a fault, in a memory holding exactly the last of these. No argument array
  is written on the way, so each ends as launched.
-/
import proofs.«166842_j9775345565972_2_alg».proof.Proof.FrmRegion0
import proofs.«166842_j9775345565972_2_alg».proof.Proof.FrmShare1
import proofs.«166842_j9775345565972_2_alg».proof.Proof.FrmRegion2
import proofs.«166842_j9775345565972_2_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every window of a region whose arrays are distinct holds its array whole. -/
abbrev qFull : Fin 4 → PosShare TreeShare := fun _ => fullShare

/-! ## The buffers' contents at the eight boundaries -/

/-- At launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its output's array at what its write-backs leave, every other buffer as entered. -/
def W2 (c : Dev nD) : Valuation τ sig (Elt F) :=
  Pipeline.withArrays spec0 c (W1 m c) fun w => (dat0 (V1 m) qFull c).arrAt w cfg0.N
theorem W2_arr (c : Dev nD) (w : Fin cfg0.W) :
    W2 m c (Proc.devRef .tc (Pipeline.arrRef spec0 w)) = (dat0 (V1 m) qFull c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: its output's array overwritten, the shared input array and every other buffer as entered. -/
def W4 (c : Dev nD) : Valuation τ sig (Elt F) :=
  Function.update (W3 m c) (Proc.devRef .tc main_v12) ((dat1 (V3 m) q1 c).arrAt 3 cfg1.N)
theorem W4_out (c : Dev nD) : W4 m c (Proc.devRef .tc main_v12) = (dat1 (V3 m) q1 c).arrAt 3 cfg1.N := by
  unfold W4; exact Function.update_self ..
theorem W4_of_ne (c : Dev nD) (b : Ref sig .tc) (hb : b ≠ main_v12) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b
/-- After the third host stretch (the third region's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third region. -/
def W6 (c : Dev nD) : Valuation τ sig (Elt F) :=
  Pipeline.withArrays spec2 c (W5 m c) fun w => (dat2 (V5 m) qFull c).arrAt w cfg2.N
theorem W6_arr (c : Dev nD) (w : Fin cfg2.W) :
    W6 m c (Proc.devRef .tc (Pipeline.arrRef spec2 w)) = (dat2 (V5 m) qFull c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- After the last host stretch: what the program ends with. -/
abbrev W7 : Dev nD → Valuation τ sig (Elt F) := fun c => StableHlo.after hostOps3 (W6 m c)

theorem hF0 (c : Dev nD) (w : Fin cfg0.W) : (dat0 (V1 m) qFull c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF2 (c : Dev nD) (w : Fin cfg2.W) : (dat2 (V5 m) qFull c).arrAt w cfg2.N = V6 m c (Pipeline.arrRef spec2 w) := (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## No stretch and no region writes an argument -/

theorem W_keeps (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : r ≠ main_v12) (a2 : ∀ w, Pipeline.arrRef spec2 w ≠ r) :
    W7 m c (Proc.devRef .tc r) = m ((c : Thread nD τ).loc r) :=
  (StableHlo.after_of_writes_sub hostOps3 _ hostOps3_writes h3).trans <| (W6_of_ne m c r a2).trans <|
  (StableHlo.after_of_writes_sub hostOps2 _ hostOps2_writes h2).trans <| (W4_of_ne m c r a1).trans <|
  (StableHlo.after_of_writes_sub hostOps1 _ hostOps1_writes h1).trans <| (W2_of_ne m c r a0).trans <|
  (StableHlo.after_of_writes_sub hostOps0 _ hostOps0_writes h0).trans rfl

theorem W7_main_arg0 (c : Dev nD) : W7 m c (Proc.devRef .tc main_arg0) = m ((c : Thread nD τ).loc main_arg0) :=
  W_keeps m c main_arg0 (by decide) (by decide) (by decide) (by decide) (by decide) (by decide) (by decide)
theorem W7_main_arg1 (c : Dev nD) : W7 m c (Proc.devRef .tc main_arg1) = m ((c : Thread nD τ).loc main_arg1) :=
  W_keeps m c main_arg1 (by decide) (by decide) (by decide) (by decide) (by decide) (by decide) (by decide)
theorem W7_main_arg2 (c : Dev nD) : W7 m c (Proc.devRef .tc main_arg2) = m ((c : Thread nD τ).loc main_arg2) :=
  W_keeps m c main_arg2 (by decide) (by decide) (by decide) (by decide) (by decide) (by decide) (by decide)
theorem W7_main_arg3 (c : Dev nD) : W7 m c (Proc.devRef .tc main_arg3) = m ((c : Thread nD τ).loc main_arg3) :=
  W_keeps m c main_arg3 (by decide) (by decide) (by decide) (by decide) (by decide) (by decide) (by decide)
theorem W7_main_arg4 (c : Dev nD) : W7 m c (Proc.devRef .tc main_arg4) = m ((c : Thread nD τ).loc main_arg4) :=
  W_keeps m c main_arg4 (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) qFull c
  | ⟨1, _⟩ => fun c => dat1 (V3 m) q1 c
  | ⟨2, _⟩ => fun c => dat2 (V5 m) qFull c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- The first region: entered from the buffers at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) qFull c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the buffers at `W3`, left at `W4`; the shared input array dealt to its three
    windows on entry and joined back on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) q1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0)
          ∗ Pipeline.unscopedRest (Ix := Unit) (Name := ℕ) (U := UR sig nD τ) (Lvl := ℕ) spec1 c (V3 m c)) := entry1 (W3 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (StableHlo.held (c : Thread nD τ) (Pipeline.ucRefs τ sig) (W4 m c) : sProp 𝕄) :=
      exit1 (W3 m) c (W4 m c) (W4_of_ne m c main_v11 (by decide)) (W4_out m c)
        (fun b hb => W4_of_ne m c b fun e => hb (by rw [e]; decide))
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The third region: entered from the buffers at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) qFull c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
/-- THE RUN: from any memory with zero counters, every weakly fair execution of @main terminates, nothing faulting,
    in a memory that holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c =>
      (show (iprop(StableHlo.held (c : Thread nD τ) (Pipeline.ucRefs τ sig) (W7 m c) ∗ R c) : sProp 𝕄)
          ⊢ iprop(Tₙ m c ∗ ∃ W, owes (c : Thread nD τ) (0 : CellTallies nD τ sig Unit) W) from by
        iintro ⟨Hh, Hp, HO⟩
        isplitr [HO]
        · isplitl [Hh]; · iexact Hh
          iexact Hp
        · iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_all m ρ)

end Cert.KernelIdeal.Frm

end
-- ==== Proof.Spec.lean ====
/-
  Multi-head self-attention as ONE function of its five argument arrays, on the extended reals.

  A batch of 4 sequences of 2048 tokens of width 1024; 16 heads of width 64. Token (n, l) is projected to 3072
  features, feature f = 192·h + 64·j + d being lane d of part j (0 the query, 1 the key, 2 the value) of head h.
  Head h of sequence n scores query token q against key token k by the dot product of their 64 lanes times 1/8,
  turns row q of the scores into weights — the exponential of each score less the row's maximum, over the sum of
  those exponentials —, and mixes the value lanes of all tokens with those weights. The 16 heads' 64 lanes, side
  by side, are the 1024 context features of the token, which a last affine map sends to the result.

  Both programs compute exactly this; they differ in how the 3072 features are ordered in memory and in how the
  work is tiled, which changes no sum here: addition and multiplication of extended reals are commutative and
  associative, and no other law is needed (no distributivity, no cancellation), so no finiteness either.
-/
import Idealize.ShloMosaic.PureOps.Ideal
import Idealize.ShloMosaic.PureOps.Ideal.Laws
import Idealize.ShloMosaic.Lib.ValueIdx

noncomputable section

open scoped BigOperators

namespace Cert.Mha

open Idealize.ShloMosaic Idealize.ShloMosaic.ValueIdx

/-- The scale 1/8 of the scores, kept as the word both programs spell it with (the same word on both sides: it
    is never evaluated). -/
abbrev eighth : EReal := Ideal.ofBits .f32 0x3E000000#32

/-- The value a row maximum is folded from (the word of minus infinity; never evaluated either). -/
abbrev floorVal : EReal := Ideal.ofBits .f32 0xFF800000#32

/-- Feature `192·h + 64·j + d`: lane `d` of part `j` (query, key, value) of head `h`. -/
def feat (h : Fin 16) (j : Fin 3) (d : Fin 64) : Fin 3072 := ⟨192 * h.val + 64 * j.val + d.val, by omega⟩

/-- Context feature `c` belongs to head `c / 64` … -/
def headOf (c : Fin 1024) : Fin 16 := ⟨c.val / 64, by omega⟩
/-- … and is its lane `c % 64`. -/
def laneOf (c : Fin 1024) : Fin 64 := ⟨c.val % 64, by omega⟩

/-- The fused projection: token `(n, l)`'s feature `f` is the dot product of the token with row `f` of the weight,
    plus the bias. -/
def proj (x : Fin 4 → Fin 2048 → Fin 1024 → EReal) (W : Fin 3072 → Fin 1024 → EReal) (b : Fin 3072 → EReal)
    (n : Fin 4) (l : Fin 2048) (f : Fin 3072) : EReal :=
  (∑ c : Fin 1024, x n l c * W f c) + b f

/-- Head `h`'s score of query token `q` against key token `k`. -/
def score (Q : Fin 4 → Fin 2048 → Fin 3072 → EReal) (n : Fin 4) (h : Fin 16) (q k : Fin 2048) : EReal :=
  (∑ d : Fin 64, Q n q (feat h 0 d) * Q n k (feat h 1 d)) * eighth

/-- The maximum of a row of scores (folded from minus infinity). -/
def rowMax (S : Fin 2048 → EReal) : EReal := Finset.univ.fold max floorVal S

/-- A row's exponentials, each score less the row's maximum. -/
def expo (S : Fin 2048 → EReal) (k : Fin 2048) : EReal := Ideal.exp (S k - rowMax S)

/-- A row's weights: its exponentials over their sum. -/
def weight (S : Fin 2048 → EReal) (k : Fin 2048) : EReal := Ideal.div (expo S k) (∑ k' : Fin 2048, expo S k')

/-- Lane `d` of head `h`'s context of token `(n, l)`: the value lanes of every token, mixed by the row's weights. -/
def ctx (Q : Fin 4 → Fin 2048 → Fin 3072 → EReal) (n : Fin 4) (l : Fin 2048) (h : Fin 16) (d : Fin 64) : EReal :=
  ∑ k : Fin 2048, weight (score Q n h l) k * Q n k (feat h 2 d)

/-- The result: the context features through the last affine map. -/
def out (Q : Fin 4 → Fin 2048 → Fin 3072 → EReal) (Wo : Fin 1024 → Fin 1024 → EReal) (bo : Fin 1024 → EReal)
    (n : Fin 4) (l : Fin 2048) (o : Fin 1024) : EReal :=
  (∑ c : Fin 1024, ctx Q n l (headOf c) (laneOf c) * Wo o c) + bo o

/-- The whole layer, over the argument arrays indexed as the programs index them. -/
def mha (x : (⟨3, ![4, 2048, 1024]⟩ : Shape).Idx → EReal) (W : (⟨2, ![3072, 1024]⟩ : Shape).Idx → EReal)
    (b : (⟨1, ![3072]⟩ : Shape).Idx → EReal) (Wo : (⟨2, ![1024, 1024]⟩ : Shape).Idx → EReal)
    (bo : (⟨1, ![1024]⟩ : Shape).Idx → EReal) : (⟨3, ![4, 2048, 1024]⟩ : Shape).Idx → EReal :=
  fun i => out (proj (fun n l c => x (ix3 n l c)) (fun f c => W (ix2 f c)) (fun f => b (ix1 f)))
    (fun o c => Wo (ix2 o c)) (fun o => bo (ix1 o)) (i 0) (i 1) (i 2)

/-- The projection of the argument arrays, named: what every later stage is a function of. -/
abbrev projOf (x : (⟨3, ![4, 2048, 1024]⟩ : Shape).Idx → EReal) (W : (⟨2, ![3072, 1024]⟩ : Shape).Idx → EReal)
    (b : (⟨1, ![3072]⟩ : Shape).Idx → EReal) : Fin 4 → Fin 2048 → Fin 3072 → EReal :=
  proj (fun n l c => x (ix3 n l c)) (fun f c => W (ix2 f c)) (fun f => b (ix1 f))

theorem mha_apply (x : (⟨3, ![4, 2048, 1024]⟩ : Shape).Idx → EReal) (W : (⟨2, ![3072, 1024]⟩ : Shape).Idx → EReal)
    (b : (⟨1, ![3072]⟩ : Shape).Idx → EReal) (Wo : (⟨2, ![1024, 1024]⟩ : Shape).Idx → EReal)
    (bo : (⟨1, ![1024]⟩ : Shape).Idx → EReal) (n : Fin 4) (l : Fin 2048) (o : Fin 1024) :
    mha x W b Wo bo (ix3 n l o) = out (projOf x W b) (fun o c => Wo (ix2 o c)) (fun o => bo (ix1 o)) n l o := rfl

/-- Folding a maximum from a value and then taking the maximum with that value again changes nothing. -/
theorem max_floor_rowMax (S : Fin 2048 → EReal) : max floorVal (rowMax S) = rowMax S :=
  max_eq_right ((Finset.le_fold_max (s := Finset.univ) (f := S) (b := floorVal) (c := floorVal)).2 (Or.inl le_rfl))

end Cert.Mha

end
-- ==== Proof.RefValue.lean ====
/-
  The plain program is the attention layer of the specification.

  Each stage of the plain program is read at explicit coordinates and identified with the corresponding function of
  the specification: the fused projection, its three slices (feature 192·h + 64·j + d of a token is lane d of part j
  of head h), the scaled scores, the row maximum, the exponentials, the weights, the per-head context, the context
  features laid side by side, and the last affine map.
-/
import proofs.«166842_j9775345565972_2_alg».proof.Proof.Gen.ReferenceIdeal.Read
import proofs.«166842_j9775345565972_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.StableHlo Cert.Mha

/-- The argument arrays of the program: the tokens, the fused weight and bias, the last weight and bias. -/
abbrev X0 := (⟨S4x2048x1024, .f32⟩ : BufTy).Contents (Elt Ideal)
abbrev X1 := (⟨S3072x1024, .f32⟩ : BufTy).Contents (Elt Ideal)
abbrev X2 := (⟨S3072, .f32⟩ : BufTy).Contents (Elt Ideal)
abbrev X3 := (⟨S1024x1024, .f32⟩ : BufTy).Contents (Elt Ideal)
abbrev X4 := (⟨S1024, .f32⟩ : BufTy).Contents (Elt Ideal)

/-- The fused projection at token (n, l) and feature f. -/
theorem proj_at (x0 : X0) (x1 : X1) (x2 : X2) (n : Fin 4) (l : Fin 2048) (f : Fin 3072) :
    val_main_v3 (F := Ideal) x0 x1 x2 (ix3 n l f) = projOf x0 x1 x2 n l f := by
  rw [val_main_v3_apply, val_main_v0_apply, val_main_v2_apply, val_main_v1_apply]
  have e0 : ∀ k : Fin 1024, lidx_main_v0 (ix3 n l f) k = ix3 n l k := fun k => funext fun a => by
    match a with | ⟨0, _⟩ => rfl | ⟨1, _⟩ => rfl | ⟨2, _⟩ => rfl
  have e1 : ∀ k : Fin 1024, ridx_main_v0 (ix3 n l f) k = ix2 f k := fun k => funext fun a => by
    match a with | ⟨0, _⟩ => rfl | ⟨1, _⟩ => rfl
  have e2 : idx_main_v1 (idx_main_v2 (ix3 n l f)) = ix1 f := funext fun a => by
    match a with | ⟨0, _⟩ => rfl
  simp only [e0, e1, e2]
  rfl

/-- The arithmetic of the feature index: in the array of tokens by heads by 192 lanes, entry (n, l, h, c) is
    feature 192·h + c of token (n, l). -/
theorem split_at (x0 : X0) (x1 : X1) (x2 : X2) (n : Fin 4) (h : Fin 16) (l : Fin 2048) (c : Fin 192) :
    val_main_v5 (F := Ideal) x0 x1 x2 (ix4 n h l c)
      = val_main_v3 (F := Ideal) x0 x1 x2 (ix3 n l (⟨192 * h.val + c.val, by omega⟩ : Fin 3072)) := by
  rw [val_main_v5_apply, val_main_v4_apply]
  refine congrArg (val_main_v3 (F := Ideal) x0 x1 x2) (funext fun a => Fin.ext ?_)
  have hn := n.isLt; have hh := h.isLt; have hl := l.isLt; have hc := c.isLt
  match a with
  | ⟨0, _⟩ => show (((n.val * 2048 + l.val) * 16 + h.val) * 192 + c.val) / 6291456 = n.val; omega
  | ⟨1, _⟩ => show (((n.val * 2048 + l.val) * 16 + h.val) * 192 + c.val) / 3072 % 2048 = l.val; omega
  | ⟨2, _⟩ => show (((n.val * 2048 + l.val) * 16 + h.val) * 192 + c.val) % 3072 = 192 * h.val + c.val; omega

/-- The query slice: lane d of head h of token (n, l) is feature 192·h + d. -/
theorem q_at (x0 : X0) (x1 : X1) (x2 : X2) (n : Fin 4) (h : Fin 16) (l : Fin 2048) (d : Fin 64) :
    val_main_v6 (F := Ideal) x0 x1 x2 (ix4 n h l d) = projOf x0 x1 x2 n l (feat h 0 d) := by
  rw [val_main_v6_apply]
  have e : idx_main_v6 (ix4 n h l d) = ix4 n h l (⟨d.val, by omega⟩ : Fin 192) := funext fun a => by
    match a with | ⟨0, _⟩ => rfl | ⟨1, _⟩ => rfl | ⟨2, _⟩ => rfl | ⟨3, _⟩ => rfl
  rw [e, split_at, ← proj_at]
  exact congrArg (val_main_v3 (F := Ideal) x0 x1 x2) (congrArg (ix3 n l) (Fin.ext (by show 192 * h.val + d.val = 192 * h.val + 64 * 0 + d.val; omega)))

/-- The key slice: feature 192·h + 64 + d. -/
theorem k_at (x0 : X0) (x1 : X1) (x2 : X2) (n : Fin 4) (h : Fin 16) (l : Fin 2048) (d : Fin 64) :
    val_main_v7 (F := Ideal) x0 x1 x2 (ix4 n h l d) = projOf x0 x1 x2 n l (feat h 1 d) := by
  rw [val_main_v7_apply]
  have e : idx_main_v7 (ix4 n h l d) = ix4 n h l (⟨64 + d.val, by omega⟩ : Fin 192) := funext fun a => by
    match a with | ⟨0, _⟩ => rfl | ⟨1, _⟩ => rfl | ⟨2, _⟩ => rfl | ⟨3, _⟩ => rfl
  rw [e, split_at, ← proj_at]
  exact congrArg (val_main_v3 (F := Ideal) x0 x1 x2) (congrArg (ix3 n l) (Fin.ext (by show 192 * h.val + (64 + d.val) = 192 * h.val + 64 * 1 + d.val; omega)))

/-- The value slice: feature 192·h + 128 + d. -/
theorem v_at (x0 : X0) (x1 : X1) (x2 : X2) (n : Fin 4) (h : Fin 16) (l : Fin 2048) (d : Fin 64) :
    val_main_v8 (F := Ideal) x0 x1 x2 (ix4 n h l d) = projOf x0 x1 x2 n l (feat h 2 d) := by
  rw [val_main_v8_apply]
  have e : idx_main_v8 (ix4 n h l d) = ix4 n h l (⟨128 + d.val, by omega⟩ : Fin 192) := funext fun a => by
    match a with | ⟨0, _⟩ => rfl | ⟨1, _⟩ => rfl | ⟨2, _⟩ => rfl | ⟨3, _⟩ => rfl
  rw [e, split_at, ← proj_at]
  exact congrArg (val_main_v3 (F := Ideal) x0 x1 x2) (congrArg (ix3 n l) (Fin.ext (by show 192 * h.val + (128 + d.val) = 192 * h.val + 64 * 2 + d.val; omega)))

/-- The scaled scores of head h of sequence n: query token q against key token k. -/
theorem score_at (x0 : X0) (x1 : X1) (x2 : X2) (n : Fin 4) (h : Fin 16) (q k : Fin 2048) :
    val_main_v11 (F := Ideal) x0 x1 x2 (ix4 n h q k) = score (projOf x0 x1 x2) n h q k := by
  rw [val_main_v11_apply, val_main_v9_apply, val_main_v10_apply, val_main_cst_apply]
  have el : ∀ d : Fin 64, lidx_main_v9 (ix4 n h q k) d = ix4 n h q d := fun d => funext fun a => by
    match a with | ⟨0, _⟩ => rfl | ⟨1, _⟩ => rfl | ⟨2, _⟩ => rfl | ⟨3, _⟩ => rfl
  have er : ∀ d : Fin 64, ridx_main_v9 (ix4 n h q k) d = ix4 n h k d := fun d => funext fun a => by
    match a with | ⟨0, _⟩ => rfl | ⟨1, _⟩ => rfl | ⟨2, _⟩ => rfl | ⟨3, _⟩ => rfl
  simp only [el, er, q_at, k_at]
  rfl

/-- The maximum of row q of the scores, folded over the key tokens from minus infinity. -/
theorem fold_at (x0 : X0) (x1 : X1) (x2 : X2) (n : Fin 4) (h : Fin 16) (q : Fin 2048) :
    val_main_v12 (F := Ideal) x0 x1 x2 (ix3 n h q) = rowMax (score (projOf x0 x1 x2) n h q) := by
  have hR : S4x16x2048x2048.Reduces [3] S4x16x2048 := by decide
  unfold val_main_v12
  refine (Host.reduce_eq_fold_single _ _ _ reducesTo_S4x16x2048x2048_S4x16x2048_d3 hR h_S_ (ix3 n h q)).trans ?_
  rw [val_main_cst_0_apply]
  show Finset.univ.fold max floorVal (fun k : Fin 2048 => val_main_v11 (F := Ideal) x0 x1 x2 (hR.lift (ix3 n h q) k)) = _
  unfold rowMax
  refine congrArg (Finset.univ.fold max floorVal) (funext fun k => ?_)
  rw [← score_at]
  exact congrArg (val_main_v11 (F := Ideal) x0 x1 x2) (funext fun a => Fin.ext (by
    match a with | ⟨0, _⟩ => rfl | ⟨1, _⟩ => rfl | ⟨2, _⟩ => rfl | ⟨3, _⟩ => rfl))

/-- Taking the maximum with minus infinity once more changes nothing. -/
theorem rowmax_at (x0 : X0) (x1 : X1) (x2 : X2) (n : Fin 4) (h : Fin 16) (q : Fin 2048) :
    val_main_v14 (F := Ideal) x0 x1 x2 (ix3 n h q) = rowMax (score (projOf x0 x1 x2) n h q) := by
  rw [val_main_v14_apply, val_main_v13_apply, val_main_cst_1_apply, fold_at]
  exact max_floor_rowMax _

/-- The row maximum, laid along the row. -/
theorem bmax_at (x0 : X0) (x1 : X1) (x2 : X2) (n : Fin 4) (h : Fin 16) (q k : Fin 2048) :
    val_main_v16 (F := Ideal) x0 x1 x2 (ix4 n h q k) = rowMax (score (projOf x0 x1 x2) n h q) := by
  rw [val_main_v16_apply, val_main_v15_apply, ← rowmax_at]
  exact congrArg (val_main_v14 (F := Ideal) x0 x1 x2) (funext fun a => by
    match a with | ⟨0, _⟩ => rfl | ⟨1, _⟩ => rfl | ⟨2, _⟩ => rfl)

/-- The exponentials: each score less its row's maximum. -/
theorem expo_at (x0 : X0) (x1 : X1) (x2 : X2) (n : Fin 4) (h : Fin 16) (q k : Fin 2048) :
    val_main_v18 (F := Ideal) x0 x1 x2 (ix4 n h q k) = expo (score (projOf x0 x1 x2) n h q) k := by
  rw [val_main_v18_apply, val_main_v17_apply, bmax_at, score_at, Ideal.hostUnary_exp_def, Ideal.subf_def]
  rfl

/-- The sum of a row's exponentials (the sum starts from zero). -/
theorem sum_at (x0 : X0) (x1 : X1) (x2 : X2) (n : Fin 4) (h : Fin 16) (q : Fin 2048) :
    val_main_v19 (F := Ideal) x0 x1 x2 (ix3 n h q) = ∑ k : Fin 2048, expo (score (projOf x0 x1 x2) n h q) k := by
  rw [val_main_v19_apply, val_main_cst_2_apply, Ideal.ofBits_def, Ideal.ofBits_zero_f32, zero_add]
  refine Finset.sum_congr rfl fun k _ => ?_
  rw [← expo_at]
  exact congrArg (val_main_v18 (F := Ideal) x0 x1 x2) (funext fun a => by
    match a with | ⟨0, _⟩ => rfl | ⟨1, _⟩ => rfl | ⟨2, _⟩ => rfl | ⟨3, _⟩ => rfl)

/-- That sum, laid along the row. -/
theorem bsum_at (x0 : X0) (x1 : X1) (x2 : X2) (n : Fin 4) (h : Fin 16) (q k : Fin 2048) :
    val_main_v21 (F := Ideal) x0 x1 x2 (ix4 n h q k) = ∑ k' : Fin 2048, expo (score (projOf x0 x1 x2) n h q) k' := by
  rw [val_main_v21_apply, val_main_v20_apply, ← sum_at]
  exact congrArg (val_main_v19 (F := Ideal) x0 x1 x2) (funext fun a => by
    match a with | ⟨0, _⟩ => rfl | ⟨1, _⟩ => rfl | ⟨2, _⟩ => rfl)

/-- The weights: the exponentials over their sum. -/
theorem weight_at (x0 : X0) (x1 : X1) (x2 : X2) (n : Fin 4) (h : Fin 16) (q k : Fin 2048) :
    val_main_v22 (F := Ideal) x0 x1 x2 (ix4 n h q k) = weight (score (projOf x0 x1 x2) n h q) k := by
  rw [val_main_v22_apply, bsum_at, expo_at, Ideal.hostDivf_def]
  rfl

/-- Lane d of head h's context of token (n, l). -/
theorem ctx_at (x0 : X0) (x1 : X1) (x2 : X2) (n : Fin 4) (h : Fin 16) (l : Fin 2048) (d : Fin 64) :
    val_main_v23 (F := Ideal) x0 x1 x2 (ix4 n h l d) = ctx (projOf x0 x1 x2) n l h d := by
  rw [val_main_v23_apply]
  have el : ∀ k : Fin 2048, lidx_main_v23 (ix4 n h l d) k = ix4 n h l k := fun k => funext fun a => by
    match a with | ⟨0, _⟩ => rfl | ⟨1, _⟩ => rfl | ⟨2, _⟩ => rfl | ⟨3, _⟩ => rfl
  have er : ∀ k : Fin 2048, ridx_main_v23 (ix4 n h l d) k = ix4 n h k d := fun k => funext fun a => by
    match a with | ⟨0, _⟩ => rfl | ⟨1, _⟩ => rfl | ⟨2, _⟩ => rfl | ⟨3, _⟩ => rfl
  simp only [el, er, weight_at, v_at]
  rfl

/-- The heads' lanes side by side: context feature c of a token is lane c % 64 of head c / 64. -/
theorem ctxfeat_at (x0 : X0) (x1 : X1) (x2 : X2) (n : Fin 4) (l : Fin 2048) (c : Fin 1024) :
    val_main_v25 (F := Ideal) x0 x1 x2 (ix3 n l c) = ctx (projOf x0 x1 x2) n l (headOf c) (laneOf c) := by
  rw [val_main_v25_apply, val_main_v24_apply, ← ctx_at]
  refine congrArg (val_main_v23 (F := Ideal) x0 x1 x2) (funext fun a => Fin.ext ?_)
  have hn := n.isLt; have hl := l.isLt; have hc := c.isLt
  match a with
  | ⟨0, _⟩ => show ((n.val * 2048 + l.val) * 1024 + c.val) / 2097152 = n.val; omega
  | ⟨1, _⟩ => show ((n.val * 2048 + l.val) * 1024 + c.val) / 64 % 16 = c.val / 64; omega
  | ⟨2, _⟩ => show ((n.val * 2048 + l.val) * 1024 + c.val) / 1024 % 2048 = l.val; omega
  | ⟨3, _⟩ => show ((n.val * 2048 + l.val) * 1024 + c.val) % 64 = c.val % 64; omega

/-- The result at token (n, l) and output feature o: the last affine map of the context features. -/
theorem out_at (x0 : X0) (x1 : X1) (x2 : X2) (x3 : X3) (x4 : X4) (n : Fin 4) (l : Fin 2048) (o : Fin 1024) :
    val_main_v29 (F := Ideal) x0 x1 x2 x3 x4 (ix3 n l o)
      = out (projOf x0 x1 x2) (fun o c => x3 (ix2 o c)) (fun o => x4 (ix1 o)) n l o := by
  rw [val_main_v29_apply, val_main_v26_apply, val_main_v28_apply, val_main_v27_apply]
  have el : ∀ k : Fin 1024, lidx_main_v26 (ix3 n l o) k = ix3 n l k := fun k => funext fun a => by
    match a with | ⟨0, _⟩ => rfl | ⟨1, _⟩ => rfl | ⟨2, _⟩ => rfl
  have er : ∀ k : Fin 1024, ridx_main_v26 (ix3 n l o) k = ix2 o k := fun k => funext fun a => by
    match a with | ⟨0, _⟩ => rfl | ⟨1, _⟩ => rfl
  have eb : idx_main_v27 (idx_main_v28 (ix3 n l o)) = ix1 o := funext fun a => by
    match a with | ⟨0, _⟩ => rfl
  simp only [el, er, eb, ctxfeat_at]
  rfl

/-- The plain program computes the attention layer of the specification. -/
theorem ref_is_mha (x0 : (⟨S4x2048x1024, .f32⟩ : BufTy).Contents (Elt Ideal)) (x1 : (⟨S3072x1024, .f32⟩ : BufTy).Contents (Elt Ideal)) (x2 : (⟨S3072, .f32⟩ : BufTy).Contents (Elt Ideal)) (x3 : (⟨S1024x1024, .f32⟩ : BufTy).Contents (Elt Ideal)) (x4 : (⟨S1024, .f32⟩ : BufTy).Contents (Elt Ideal)) :
    Cert.ReferenceIdeal.Read.val_main_v29 (F := Ideal) x0 x1 x2 x3 x4 = Cert.Mha.mha x0 x1 x2 x3 x4 := by
  funext i
  obtain ⟨n, l, o, rfl⟩ : ∃ (n : Fin 4) (l : Fin 2048) (o : Fin 1024), i = ix3 n l o := ⟨i 0, i 1, i 2, eq_ix3 i⟩
  rw [mha_apply]
  exact out_at x0 x1 x2 x3 x4 n l o

end Cert.ReferenceIdeal.RefValue

end
-- ==== Proof.DenseBlock.lean ====
/-
  The two dense tiles read at one element.

  Each tile multiplies a block of 512 rows by a whole weight matrix on the matrix unit, starting from the zero
  accumulator, and adds one bias row to every row of the product. On the extended reals every format change is the
  identity and the product's element (p, g) is the sum over the 1024 contraction positions c of
  lhs (p, c) * rhs (c, g); the bias row broadcast over the rows contributes its element g. So element (p, g) of a
  tile is that sum plus the bias at g.
-/
import proofs.«166842_j9775345565972_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DenseBlock

open Cert.KernelIdeal Cert.KernelIdeal.Gen Idealize.ShloMosaic Idealize.ShloMosaic.ValueIdx

/-- Element (p, g) of a plain rows-by-columns product into the zero accumulator: the sum over the one contraction
    axis of the left operand's row p times the right operand's column g. The four hypotheses say which coordinate
    of the result or of the contraction position each operand coordinate is. -/
theorem matmul_zero_ix2 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ (i : (⟨2, ![m, n]⟩ : Shape).Idx) (q : D.contr.Idx), (D.lhsIdx i q 0).val = (i 0).val)
    (hl1 : ∀ (i : (⟨2, ![m, n]⟩ : Shape).Idx) (q : D.contr.Idx), (D.lhsIdx i q 1).val = (q ⟨0, by omega⟩).val)
    (hr0 : ∀ (i : (⟨2, ![m, n]⟩ : Shape).Idx) (q : D.contr.Idx), (D.rhsIdx i q 0).val = (q ⟨0, by omega⟩).val)
    (hr1 : ∀ (i : (⟨2, ![m, n]⟩ : Shape).Idx) (q : D.contr.Idx), (D.rhsIdx i q 1).val = (i 1).val)
    (lhs : FVec Ideal ⟨2, ![m, k]⟩ φ₁) (rhs : FVec Ideal ⟨2, ![k, n]⟩ φ₂) (p : Fin m) (g : Fin n) :
    matmul D none lhs rhs (constant (F := Ideal) ⟨2, ![m, n]⟩ .f32 0x00000000#32) (ix2 p g)
      = ∑ c : Fin k, lhs (ix2 p c) * rhs (ix2 c g) := by
  refine (Ideal.matmul_constant_zero_apply D none lhs rhs (ix2 p g)).trans ?_
  rw [← Equiv.sum_comp (contrEquiv1 D k hr hs).symm]
  refine Finset.sum_congr rfl fun c _ => ?_
  have hc := contrEquiv1_symm_val D k hr hs c
  have el : D.lhsIdx (ix2 p g) ((contrEquiv1 D k hr hs).symm c) = ix2 p c := funext fun a => Fin.ext (by
    match a with
    | ⟨0, _⟩ => exact hl0 _ _
    | ⟨1, _⟩ => exact (hl1 _ _).trans hc)
  have er : D.rhsIdx (ix2 p g) ((contrEquiv1 D k hr hs).symm c) = ix2 c g := funext fun a => Fin.ext (by
    match a with
    | ⟨0, _⟩ => exact (hr0 _ _).trans hc
    | ⟨1, _⟩ => exact hr1 _ _)
  rw [el, er]

/-! ## The two tiles' dimension records, coordinate by coordinate -/

/-- Row coordinate of the left operand: the result's row. -/
theorem d0_lhs0 (i : S512x3072.Idx) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
/-- Column coordinate of the left operand: the contraction position. -/
theorem d0_lhs1 (i : S512x3072.Idx) (q : dot_S512x1024_S1024x3072_S512x3072_1_0_0_1_n_n.contr.Idx) : (dot_S512x1024_S1024x3072_S512x3072_1_0_0_1_n_n.lhsIdx i q 1).val = (q ⟨0, by decide⟩).val :=
  dot_S512x1024_S1024x3072_S512x3072_1_0_0_1_n_n.lhsIdx_val_of_single rfl i q
/-- Row coordinate of the right operand: the contraction position. -/
theorem d0_rhs0 (i : S512x3072.Idx) (q : dot_S512x1024_S1024x3072_S512x3072_1_0_0_1_n_n.contr.Idx) : (dot_S512x1024_S1024x3072_S512x3072_1_0_0_1_n_n.rhsIdx i q 0).val = (q ⟨0, by decide⟩).val :=
  dot_S512x1024_S1024x3072_S512x3072_1_0_0_1_n_n.rhsIdx_val_of_single rfl i q
/-- Column coordinate of the right operand: the result's column. -/
theorem d0_rhs1 (i : S512x3072.Idx) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- Row coordinate of the left operand: the result's row. -/
theorem d2_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- Column coordinate of the left operand: the contraction position. -/
theorem d2_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
/-- Row coordinate of the right operand: the contraction position. -/
theorem d2_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
/-- Column coordinate of the right operand: the result's column. -/
theorem d2_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-! ## The tiles -/

/-- The first tile (512 token rows against the fused 1024 x 3072 weight): element (p, g) is the row's dot product with
    column g, plus the bias at g. -/
theorem k0_pay1_apply (v0 : Vec Ideal S512x1024 .f32) (v3 : Vec Ideal S1024x3072 .bf16) (v6 : Vec Ideal S1x3072 .f32)
    (p : Fin 512) (g : Fin 3072) :
    k0_pay1 (F := Ideal) v0 v3 v6 (ix2 p g)
      = (∑ c : Fin 1024, v0 (ix2 p c) * v3 (ix2 c g)) + v6 (ix2 (0 : Fin 1) g) := by
  unfold k0_pay1
  simp only [shapeCast_self]
  refine (truncf_apply (ψ := .bf16) (addf _ _) bitsLt_bf16_f32 (ix2 p g)).trans ?_
  refine (addf_apply _ _ _).trans ?_
  refine congrArg₂ (· + ·) ?_ ?_
  · refine (matmul_zero_ix2 (φ₁ := .bf16) (φ₂ := .bf16) dot_S512x1024_S1024x3072_S512x3072_1_0_0_1_n_n rfl rfl d0_lhs0 d0_lhs1 d0_rhs0 d0_rhs1 _ _ p g).trans ?_
    rfl
  · exact broadcastTo_1b_ab_apply _ _ p g

/-- The last tile (512 context rows against the 1024 x 1024 output weight): the same, with no format change at the end. -/
theorem k2_pay1_apply (v0 : Vec Ideal S512x1024 .bf16) (v2 : Vec Ideal S1024x1024 .bf16) (v5 : Vec Ideal S1x1024 .f32)
    (p : Fin 512) (o : Fin 1024) :
    k2_pay1 (F := Ideal) v0 v2 v5 (ix2 p o)
      = (∑ c : Fin 1024, v0 (ix2 p c) * v2 (ix2 c o)) + v5 (ix2 (0 : Fin 1) o) := by
  unfold k2_pay1
  simp only [shapeCast_self]
  refine (addf_apply _ _ _).trans ?_
  refine congrArg₂ (· + ·) ?_ ?_
  · exact matmul_zero_ix2 (φ₁ := .bf16) (φ₂ := .bf16) dot_S512x1024_S1024x1024_S512x1024_1_0_0_1_n_n rfl rfl d2_lhs0 d2_lhs1 d2_rhs0 d2_rhs1 _ _ p o
  · exact broadcastTo_1b_ab_apply _ _ p o

end Cert.KernelIdeal.DenseBlock

end
-- ==== Proof.Final0.lean ====
/-
  The first region's output array as one function of its three input arrays.

  The region walks 16 grid points; point t multiplies rows 512·t … 512·t + 511 of the flattened batch by the whole
  weight, adds the bias row, and writes the 512 × 3072 tile back at rows 512·t … 512·t + 511 of the output. A tile's
  element (p, g) is the dot product of the tile's row p with the weight's column g plus the bias at g; row p of
  point t's input tile is row 512·t + p of the input array, and the tile lands at the same rows of the output. The 16
  tiles cover the 8192 rows, so the output array's element (r, g) is row r of the input against column g of the
  weight, plus the bias at g.
-/
import proofs.«166842_j9775345565972_2_alg».proof.Proof.FrmRegion0
import proofs.«166842_j9775345565972_2_alg».proof.Proof.DenseBlock
import Idealize.ShloMosaic.Lib.Pipeline.Value
import Idealize.ShloMosaic.Lib.ValueIdx

noncomputable section

open scoped BigOperators

namespace Cert.KernelIdeal.Final

open Cert.KernelIdeal Cert.KernelIdeal.Gen Cert.KernelIdeal.Frm Idealize.ShloMosaic Idealize.ShloMosaic.TcCoe Idealize.ShloMosaic.ValueIdx
open Idealize.SL Idealize.SL.RA

/-- The zero offsets of a whole-buffer rectangle of rank 2. -/
theorem zero_off2 : (![0, 0] : Fin 2 → Nat) = fun _ => 0 := funext fun a => by fin_cases a <;> rfl

/-- Where each window's block sits at grid point `t`: the row tiles of the input and of the output are tile `t`; the
    weight and the bias are whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The output array as a function of the input arrays: element `(r, g)` is row `r` of `X` against column `g` of
    `Wk`, plus `bk` at `g`. -/
def G0 (X : S8192x1024.Idx → EReal) (Wk : S1024x3072.Idx → EReal) (bk : S1x3072.Idx → EReal) : S8192x3072.Idx → EReal :=
  fun i => (∑ k : Fin 1024, X (ix2 (⟨(i 0).val, idx2_lt0 i⟩ : Fin 8192) k) * Wk (ix2 k (⟨(i 1).val, idx2_lt1 i⟩ : Fin 3072)))
    + bk (ix2 (0 : Fin 1) (⟨(i 1).val, idx2_lt1 i⟩ : Fin 3072))

theorem G0_apply (X : S8192x1024.Idx → EReal) (Wk : S1024x3072.Idx → EReal) (bk : S1x3072.Idx → EReal) (r : Fin 8192) (g : Fin 3072) :
    G0 X Wk bk (ix2 r g) = (∑ k : Fin 1024, X (ix2 r k) * Wk (ix2 k g)) + bk (ix2 (0 : Fin 1) g) := rfl

/-- A tile's element at any index of the tile, by its coordinates. -/
theorem pay0_at (x0 : Vec Ideal S512x1024 .f32) (x1 : Vec Ideal S1024x3072 .bf16) (x2 : Vec Ideal S1x3072 .f32) (j : S512x3072.Idx) :
    k0_pay1 (F := Ideal) x0 x1 x2 j
      = (∑ k : Fin 1024, x0 (ix2 (⟨(j 0).val, idx2_lt0 j⟩ : Fin 512) k) * x1 (ix2 k (⟨(j 1).val, idx2_lt1 j⟩ : Fin 3072)))
        + x2 (ix2 (0 : Fin 1) (⟨(j 1).val, idx2_lt1 j⟩ : Fin 3072)) := by
  have hj : j = ix2 (⟨(j 0).val, idx2_lt0 j⟩ : Fin 512) (⟨(j 1).val, idx2_lt1 j⟩ : Fin 3072) :=
    funext fun a => match a with | ⟨0, _⟩ => rfl | ⟨1, _⟩ => rfl
  exact (congrArg (k0_pay1 (F := Ideal) x0 x1 x2) hj).trans (DenseBlock.k0_pay1_apply x0 x1 x2 _ _)

section
variable (V : (c : Dev nD) → (b : Ref sig .tc) → Buf (Elt Ideal) ((c : Thread nD τ).loc b))

set_option backward.isDefEq.respectTransparency.types false in
/-- Point `t`'s input tile is rows `512·t …` of the input array. -/
theorem iblk0_0_apply (c : Dev nD) (t : Fin cfg0.N) (y : S512x1024.Idx) (i : S8192x1024.Idx)
    (h0 : (i 0).val = 512 * t.val + (y 0).val) (h1 : (i 1).val = (y 1).val) :
    (iblk0 V c 0 t : Vec Ideal S512x1024 .f32) y = (V c main_v9 : S8192x1024.Idx → EReal) i := by
  obtain ⟨e0, e1, -⟩ := idx_facts0 t
  unfold iblk0
  rw [View.read_apply]
  show V c main_v9 _ = V c main_v9 _
  refine congrArg (V c main_v9) (funext fun a => Fin.ext ?_)
  match a with
  | ⟨0, _⟩ => show win0_0.index t (0 : Fin 2) * 512 + 1 * (y 0).val = (i 0).val; omega
  | ⟨1, _⟩ => show win0_0.index t (1 : Fin 2) * 1024 + 1 * (y 1).val = (i 1).val; omega

set_option backward.isDefEq.respectTransparency.types false in
/-- The weight's one tile is the weight. -/
theorem iblk0_1_apply (c : Dev nD) (t : Fin cfg0.N) (y : S1024x3072.Idx) :
    (iblk0 V c 1 t : Vec Ideal S1024x3072 .bf16) y = (V c main_v7 : S1024x3072.Idx → EReal) y := by
  obtain ⟨-, -, e0, e1, -⟩ := idx_facts0 t
  unfold iblk0
  rw [View.read_apply]
  show V c main_v7 _ = V c main_v7 _
  refine congrArg (V c main_v7) (funext fun a => Fin.ext ?_)
  match a with
  | ⟨0, _⟩ => show win0_1.index t (0 : Fin 2) * 1024 + 1 * (y 0).val = (y 0).val; omega
  | ⟨1, _⟩ => show win0_1.index t (1 : Fin 2) * 3072 + 1 * (y 1).val = (y 1).val; omega

set_option backward.isDefEq.respectTransparency.types false in
/-- The bias row's one tile is the bias row. -/
theorem iblk0_2_apply (c : Dev nD) (t : Fin cfg0.N) (y : S1x3072.Idx) :
    (iblk0 V c 2 t : Vec Ideal S1x3072 .f32) y = (V c main_v8 : S1x3072.Idx → EReal) y := by
  obtain ⟨-, -, -, -, e0, e1, -⟩ := idx_facts0 t
  unfold iblk0
  rw [View.read_apply]
  show V c main_v8 _ = V c main_v8 _
  refine congrArg (V c main_v8) (funext fun a => Fin.ext ?_)
  match a with
  | ⟨0, _⟩ => show win0_2.index t (0 : Fin 2) * 1 + 1 * (y 0).val = (y 0).val; omega
  | ⟨1, _⟩ => show win0_2.index t (1 : Fin 2) * 3072 + 1 * (y 1).val = (y 1).val; omega

set_option backward.isDefEq.respectTransparency.types false in
/-- What point `t` writes back is tile `t` of `G0` of the input arrays. -/
theorem flushed0_eq (q : Fin cfg0.W → PosShare TreeShare) (c : Dev nD) (t : Fin cfg0.N) :
    (dat0 V q c).flushed 3 t
      = ((cfg0.win 3).blk t).view.read (Elt Ideal) (G0 (V c main_v9) (V c main_v7) (V c main_v8)) := by
  show (cfg0.win 3).cut (grid0.coords t) ((dat0 V q c).after 3 t) = _
  rw [after0_3]
  unfold out0_3
  rw [View.canon_unit_zero zero_off2]
  simp only [View.ld_unit_zero (S := S512x1024) zero_off2, View.ld_unit_zero (S := S1024x3072) zero_off2,
    View.ld_unit_zero (S := S1x3072) zero_off2]
  obtain ⟨-, -, -, -, -, -, e0, e1⟩ := idx_facts0 t
  funext j
  show k0_pay1 (F := Ideal) (iblk0 V c 0 t) (iblk0 V c 1 t) (iblk0 V c 2 t) j
    = G0 (V c main_v9) (V c main_v7) (V c main_v8) (((cfg0.win 3).blk t).view.emb j)
  refine (pay0_at _ _ _ j).trans ?_
  unfold G0
  have hr : ((((cfg0.win 3).blk t).view.emb j) 0).val = 512 * t.val + (j 0).val := by
    show win0_3.index t (0 : Fin 2) * 512 + 1 * (j 0).val = _
    omega
  have hg : ((((cfg0.win 3).blk t).view.emb j) 1).val = (j 1).val := by
    show win0_3.index t (1 : Fin 2) * 3072 + 1 * (j 1).val = _
    omega
  refine congrArg₂ (· + ·) (Finset.sum_congr rfl fun k _ => congrArg₂ (· * ·) ?_ ?_) ?_
  · exact iblk0_0_apply V c t _ _ hr rfl
  · refine (iblk0_1_apply V c t _).trans (congrArg (V c main_v7) (funext fun a => Fin.ext ?_))
    match a with
    | ⟨0, _⟩ => rfl
    | ⟨1, _⟩ => exact hg.symm
  · refine (iblk0_2_apply V c t _).trans (congrArg (V c main_v8) (funext fun a => Fin.ext ?_))
    match a with
    | ⟨0, _⟩ => rfl
    | ⟨1, _⟩ => exact hg.symm

/-- An index of the output array is in point `t`'s tile iff each coordinate is in the tile's range on its axis. -/
theorem mem_blk0 (t : Fin cfg0.N) (i : S8192x3072.Idx) :
    i ∈ ((cfg0.win 3).blk t).view.set
      ↔ ∀ a : Fin 2, win0_3.index t a * S512x3072.size a ≤ (i a).val ∧ (i a).val < win0_3.index t a * S512x3072.size a + S512x3072.size a := by
  show i ∈ ((View.whole main_v10).slice (win0_3.rect t)).set ↔ _
  rw [View.set_slice_whole, Rect.mem_set_unit]
  exact Iff.rfl

/-- Every index of the output array is in the tile of the point its row falls in. -/
theorem cover0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  have hN : grid0.N = 16 := N_0
  let t : Fin cfg0.N := ⟨(i 0).val / 512, by show (i 0).val / 512 < grid0.N; omega⟩
  obtain ⟨-, -, -, -, -, -, e0, e1⟩ := idx_facts0 t
  have et : t.val = (i 0).val / 512 := rfl
  refine ⟨t, flush0_3 t, ?_⟩
  rw [mem_blk0]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 3072 ≤ (i 1).val ∧ (i 1).val < win0_3.index t (1 : Fin 2) * 3072 + 3072
    omega

set_option backward.isDefEq.respectTransparency.types false in
/-- The output array after the region's 16 points is `G0` of the input arrays. -/
theorem final0 (q : Fin cfg0.W → PosShare TreeShare) (c : Dev nD) :
    (dat0 V q c).arrAt 3 cfg0.N = G0 (V c main_v9) (V c main_v7) (V c main_v8) :=
  (dat0 V q c).arrAt_eq_of_cover 3 (G0 (V c main_v9) (V c main_v7) (V c main_v8)) (fun t _ => flushed0_eq V q c t) cover0

set_option backward.isDefEq.respectTransparency.types false in
/-- Element `(r, g)` of the output array: row `r` of the input against column `g` of the weight, plus the bias at `g`. -/
theorem final0_apply (q : Fin cfg0.W → PosShare TreeShare) (c : Dev nD) (r : Fin 8192) (g : Fin 3072) :
    (dat0 V q c).arrAt 3 cfg0.N (ix2 r g)
      = @HAdd.hAdd EReal EReal EReal _
          (∑ k : Fin 1024, @HMul.hMul EReal EReal EReal _ (V c main_v9 (ix2 r k)) (V c main_v7 (ix2 k g)))
          (V c main_v8 (ix2 (0 : Fin 1) g)) :=
  (congrFun (final0 V q c) (ix2 r g)).trans (G0_apply _ _ _ r g)

end

end Cert.KernelIdeal.Final

end
-- ==== Proof.AttnBlock.lean ====
/-
  One attention tile, read at an index.

  The tile holds 512 query tokens and all 2048 key and value tokens of one sequence, for a PAIR of heads packed
  side by side in 128 lanes: head e of the pair sits in lanes 64·e … 64·e + 63. For each head of the pair the tile
  scores every query token against every key token (the dot product of their 64 lanes, times 1/8), turns each row
  of scores into weights (the exponential of each score less the row's maximum, over the sum of those
  exponentials), and mixes the value lanes of all tokens with those weights. The mix is computed transposed, as
  (values)ᵀ · (weights)ᵀ, and transposed back, so an element arrives as ∑ₖ value(k, d) · weight(q, k): the
  specification's ∑ₖ weight(q, k) · value(k, d) with every product commuted — the one algebraic law used here.

  Everything else is bookkeeping of positions: which lane of the packed block a head's lane is, what a reshape, a
  slice, a transposition, a column broadcast or a concatenation reads at given coordinates, a row maximum and a row
  sum as a fold and a sum over the 2048 key tokens, and a matrix product as a sum over the contracted coordinate.
-/
import proofs.«166842_j9775345565972_2_alg».proof.Proof.Gen.KernelIdeal.Skeleton
import proofs.«166842_j9775345565972_2_alg».proof.Proof.Spec
import Idealize.ShloMosaic.Lib.ValueLayout
import Idealize.ShloMosaic.PureOps.Ideal.Laws

noncomputable section

open scoped BigOperators

namespace Cert.KernelIdeal.AttnBlock

open Cert.KernelIdeal Cert.KernelIdeal.Gen Idealize.ShloMosaic Idealize.ShloMosaic.ValueIdx

/-! ## Lanes of a pair of heads -/

/-- Lane d of head e of the pair, among the 128 packed lanes. -/
def lane (e : Fin 2) (d : Fin 64) : Fin 128 := ⟨64 * e.val + d.val, by omega⟩

/-- Every packed lane is a lane of one of the two heads. -/
theorem lane_surj (c : Fin 128) : ∃ e d, c = lane e d :=
  ⟨⟨c.val / 64, by omega⟩, ⟨c.val % 64, by omega⟩, Fin.ext (by show c.val = 64 * (c.val / 64) + c.val % 64; omega)⟩

/-- The score of query token q against key token k for head e of the pair: the dot product of the head's 64 lanes of
    the two tokens, times 1/8. -/
def blockScore (v0 : Vec Ideal S1x512x128 .bf16) (v2 : Vec Ideal S1x2048x128 .bf16) (e : Fin 2) (q : Fin 512)
    (k : Fin 2048) : EReal :=
  (∑ d : Fin 64, v0 (ix3 (0 : Fin 1) q (lane e d)) * v2 (ix3 (0 : Fin 1) k (lane e d))) * Cert.Mha.eighth

/-! ## Positions: reshapes, slices and broadcasts at coordinates -/

section Layout
variable {α : Type}

/-- Splitting 128 lanes into 2 × 64: position (i, e, d) of the split block is lane 64·e + d of row i. -/
theorem cast_split_apply {n : ℕ} (x : (⟨2, ![n, 128]⟩ : Shape).Idx → α)
    (h : (⟨2, ![n, 128]⟩ : Shape).ShapeCasts ⟨3, ![n, 2, 64]⟩) (i : Fin n) (e : Fin 2) (d : Fin 64) :
    shapeCast ⟨3, ![n, 2, 64]⟩ x h (ix3 i e d) = x (ix2 i (lane e d)) :=
  shapeCast_apply x h _ _ (by
    rw [Shape.rowMajor_val_two, Shape.rowMajor_val_three]
    show i.val * 128 + (64 * e.val + d.val) = (i.val * 2 + e.val) * 64 + d.val
    omega)

/-- Dropping a middle axis of extent one: position (i, d) is position (i, 0, d). -/
theorem cast_squeeze_apply {n m : ℕ} (x : (⟨3, ![n, 1, m]⟩ : Shape).Idx → α)
    (h : (⟨3, ![n, 1, m]⟩ : Shape).ShapeCasts ⟨2, ![n, m]⟩) (i : Fin n) (d : Fin m) :
    shapeCast ⟨2, ![n, m]⟩ x h (ix2 i d) = x (ix3 i (0 : Fin 1) d) :=
  shapeCast_apply x h _ _ (by
    rw [Shape.rowMajor_val_three, Shape.rowMajor_val_two]
    show (i.val * 1 + 0) * m + d.val = i.val * m + d.val
    rw [Nat.mul_one, Nat.add_zero])

/-- One head's lanes cut out of a packed block [1, n, 128]: drop the leading unit axis, split the lanes 2 × 64, take
    the slab of head e (offset o = e on the middle axis), drop the unit axis. Position (i, d) of the result is
    lane 64·e + d of row i of the block. -/
theorem headSlice_apply {n : ℕ} (x : (⟨3, ![1, n, 128]⟩ : Shape).Idx → α) (o : ℕ) (e : Fin 2) (he : e.val = o)
    (h1 : (⟨3, ![1, n, 128]⟩ : Shape).ShapeCasts ⟨2, ![n, 128]⟩)
    (h2 : (⟨2, ![n, 128]⟩ : Shape).ShapeCasts ⟨3, ![n, 2, 64]⟩)
    (h3 : (⟨3, ![n, 2, 64]⟩ : Shape).Slices ![0, o, 0] ⟨3, ![n, 1, 64]⟩)
    (h4 : (⟨3, ![n, 1, 64]⟩ : Shape).ShapeCasts ⟨2, ![n, 64]⟩) (i : Fin n) (d : Fin 64) :
    shapeCast ⟨2, ![n, 64]⟩
        (extractStridedSlice ⟨3, ![n, 1, 64]⟩ ![0, o, 0]
          (shapeCast ⟨3, ![n, 2, 64]⟩ (shapeCast ⟨2, ![n, 128]⟩ x h1) h2) h3) h4 (ix2 i d)
      = x (ix3 (0 : Fin 1) i (lane e d)) := by
  refine (cast_squeeze_apply _ h4 i d).trans ?_
  refine (slice3_axis1_apply o _ h3 i (0 : Fin 1) d e (he.trans (Nat.add_zero o).symm)).trans ?_
  refine (cast_split_apply _ h2 i e d).trans ?_
  exact shapeCast_1ab_ab_apply x h1 i (lane e d)

/-- A vector made a column: position (r, 0) of the column is position r of the vector. -/
theorem cast_col_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A column repeated along every row: position (r, c) reads the column at r. -/
theorem bcast_col_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A vector over the rows, made a column and repeated along every row: position (r, c) reads the vector at r. -/
theorem col_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (r : Fin a) (c : Fin b) :
    broadcastTo ⟨2, ![a, b]⟩ (shapeCast ⟨2, ![a, 1]⟩ x h) h' (ix2 r c) = x (ix1 r) :=
  (bcast_col_apply _ h' r c).trans (cast_col_apply x h r 0)

end Layout

/-! ## A row's maximum and a row's sum over the 2048 key tokens -/

/-- The index of row r of a [512, 2048] block with k inserted on the reduced axis is (r, k). -/
theorem lift_row (h : S512x2048.Reduces [1] S512) (r : Fin 512) (k : Fin 2048) : h.lift (ix1 r) k = ix2 r k :=
  funext fun c => Fin.ext (by
    match c with
    | ⟨0, _⟩ => rfl
    | ⟨1, _⟩ => rfl)

/-- The maximum over the second axis, at row r, is the fold of max over the row from the starting value. -/
theorem rowMax_apply (src : FVec Ideal S512x2048 .f32) (h : S512x2048.Reduces [1] S512) (hφ : FKind.Formats .f32)
    (hacc : (0xFF800000#32 : BitVec 32) = 0xFF800000#32) (r : Fin 512) :
    multiReduction (F := Ideal) .maximumf [1] S512 src 0xFF800000#32 h hφ hacc (ix1 r)
      = Finset.univ.fold max Cert.Mha.floorVal (fun k : Fin 2048 => src (ix2 r k)) := by
  refine (Ideal.multiReduction_maximumf_single src _ h hφ hacc (ix1 r)).trans ?_
  show Finset.univ.fold max Cert.Mha.floorVal (fun k : Fin 2048 => src (h.lift (ix1 r) k)) = _
  simp only [lift_row]

/-- The sum over the second axis, at row r, is the sum over the row. -/
theorem rowSum_apply (src : FVec Ideal S512x2048 .f32) (h : S512x2048.Reduces [1] S512) (hφ : FKind.Formats .f32)
    (hacc : (0x00000000#32 : BitVec 32) = 0x00000000#32) (r : Fin 512) :
    multiReduction (F := Ideal) .add [1] S512 src 0x00000000#32 h hφ hacc (ix1 r) = ∑ k : Fin 2048, src (ix2 r k) := by
  refine (Ideal.multiReduction_add_single src _ h hφ hacc (ix1 r)).trans ?_
  show ∑ k : Fin 2048, src (h.lift (ix1 r) k) = _
  simp only [lift_row]

/-! ## The two matrix products as sums over the contracted coordinate

For each product, first where its two operands are read at a result position and a contracted position (the left
operand at (row, contracted), the right at (contracted, column)), then the product's entry as the sum. -/

theorem scoreDot_lhs0 (i : S512x2048.Idx) (p : dot_S512x64_S64x2048_S512x2048_1_0_0_1_n_n.contr.Idx) : (dot_S512x64_S64x2048_S512x2048_1_0_0_1_n_n.lhsIdx i p 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem scoreDot_lhs1 (i : S512x2048.Idx) (p : dot_S512x64_S64x2048_S512x2048_1_0_0_1_n_n.contr.Idx) : (dot_S512x64_S64x2048_S512x2048_1_0_0_1_n_n.lhsIdx i p 1).val = (p ⟨0, by decide⟩).val :=
  dot_S512x64_S64x2048_S512x2048_1_0_0_1_n_n.lhsIdx_val_of_single rfl i p
theorem scoreDot_rhs0 (i : S512x2048.Idx) (p : dot_S512x64_S64x2048_S512x2048_1_0_0_1_n_n.contr.Idx) : (dot_S512x64_S64x2048_S512x2048_1_0_0_1_n_n.rhsIdx i p 0).val = (p ⟨0, by decide⟩).val :=
  dot_S512x64_S64x2048_S512x2048_1_0_0_1_n_n.rhsIdx_val_of_single rfl i p
theorem scoreDot_rhs1 (i : S512x2048.Idx) (p : dot_S512x64_S64x2048_S512x2048_1_0_0_1_n_n.contr.Idx) : (dot_S512x64_S64x2048_S512x2048_1_0_0_1_n_n.rhsIdx i p 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- Scores: entry (q, k) of a [512, 64] · [64, 2048] product into the zero block is the sum over the 64 contracted
    positions. -/
theorem scoreDot_apply (a : FVec Ideal S512x64 .bf16) (b : FVec Ideal S64x2048 .bf16) (q : Fin 512) (k : Fin 2048) :
    matmul (F := Ideal) dot_S512x64_S64x2048_S512x2048_1_0_0_1_n_n none a b (constant (F := Ideal) S512x2048 .f32 0x00000000#32) (ix2 q k)
      = ∑ j : Fin 64, a (ix2 q j) * b (ix2 j k) := by
  simp only [matmul]
  rw [Ideal.matmul_constant_zero_apply, ← Equiv.sum_comp (contrEquiv1 dot_S512x64_S64x2048_S512x2048_1_0_0_1_n_n 64 rfl rfl).symm]
  refine Finset.sum_congr rfl fun j _ => ?_
  have hj := contrEquiv1_symm_val dot_S512x64_S64x2048_S512x2048_1_0_0_1_n_n 64 rfl rfl j
  have el : dot_S512x64_S64x2048_S512x2048_1_0_0_1_n_n.lhsIdx (ix2 q k) ((contrEquiv1 dot_S512x64_S64x2048_S512x2048_1_0_0_1_n_n 64 rfl rfl).symm j) = ix2 q j :=
    funext fun x => Fin.ext (by
      match x with
      | ⟨0, _⟩ => exact scoreDot_lhs0 _ _
      | ⟨1, _⟩ => exact (scoreDot_lhs1 _ _).trans hj)
  have er : dot_S512x64_S64x2048_S512x2048_1_0_0_1_n_n.rhsIdx (ix2 q k) ((contrEquiv1 dot_S512x64_S64x2048_S512x2048_1_0_0_1_n_n 64 rfl rfl).symm j) = ix2 j k :=
    funext fun x => Fin.ext (by
      match x with
      | ⟨0, _⟩ => exact (scoreDot_rhs0 _ _).trans hj
      | ⟨1, _⟩ => exact scoreDot_rhs1 _ _)
  rw [el, er]

theorem mixDot_lhs0 (i : S64x512.Idx) (p : dot_S64x2048_S2048x512_S64x512_1_0_0_1_n_n.contr.Idx) : (dot_S64x2048_S2048x512_S64x512_1_0_0_1_n_n.lhsIdx i p 0).val = (i 0).val := by
  unfold DotDims.lhsIdx
  rw [dif_neg (show ¬(0 : Fin S64x2048.rank) ∈ dot_S64x2048_S2048x512_S64x512_1_0_0_1_n_n.lhsBatch by decide),
    dif_pos (show (0 : Fin S64x2048.rank) ∈ dot_S64x2048_S2048x512_S64x512_1_0_0_1_n_n.lhsNonContracting by decide)]
  rfl
theorem mixDot_lhs1 (i : S64x512.Idx) (p : dot_S64x2048_S2048x512_S64x512_1_0_0_1_n_n.contr.Idx) : (dot_S64x2048_S2048x512_S64x512_1_0_0_1_n_n.lhsIdx i p 1).val = (p ⟨0, by decide⟩).val :=
  dot_S64x2048_S2048x512_S64x512_1_0_0_1_n_n.lhsIdx_val_of_single rfl i p
theorem mixDot_rhs0 (i : S64x512.Idx) (p : dot_S64x2048_S2048x512_S64x512_1_0_0_1_n_n.contr.Idx) : (dot_S64x2048_S2048x512_S64x512_1_0_0_1_n_n.rhsIdx i p 0).val = (p ⟨0, by decide⟩).val :=
  dot_S64x2048_S2048x512_S64x512_1_0_0_1_n_n.rhsIdx_val_of_single rfl i p
theorem mixDot_rhs1 (i : S64x512.Idx) (p : dot_S64x2048_S2048x512_S64x512_1_0_0_1_n_n.contr.Idx) : (dot_S64x2048_S2048x512_S64x512_1_0_0_1_n_n.rhsIdx i p 1).val = (i 1).val := by
  unfold DotDims.rhsIdx
  rw [dif_neg (show ¬(1 : Fin S2048x512.rank) ∈ dot_S64x2048_S2048x512_S64x512_1_0_0_1_n_n.rhsBatch by decide),
    dif_pos (show (1 : Fin S2048x512.rank) ∈ dot_S64x2048_S2048x512_S64x512_1_0_0_1_n_n.rhsNonContracting by decide)]
  rfl

/-- The mix, transposed: entry (d, q) of a [64, 2048] · [2048, 512] product into the zero block is the sum over the
    2048 contracted positions. -/
theorem mixDot_apply (a : FVec Ideal S64x2048 .bf16) (b : FVec Ideal S2048x512 .bf16) (d : Fin 64) (q : Fin 512) :
    matmul (F := Ideal) dot_S64x2048_S2048x512_S64x512_1_0_0_1_n_n none a b (constant (F := Ideal) S64x512 .f32 0x00000000#32) (ix2 d q)
      = ∑ j : Fin 2048, a (ix2 d j) * b (ix2 j q) := by
  simp only [matmul]
  rw [Ideal.matmul_constant_zero_apply, ← Equiv.sum_comp (contrEquiv1 dot_S64x2048_S2048x512_S64x512_1_0_0_1_n_n 2048 rfl rfl).symm]
  refine Finset.sum_congr rfl fun j _ => ?_
  have hj := contrEquiv1_symm_val dot_S64x2048_S2048x512_S64x512_1_0_0_1_n_n 2048 rfl rfl j
  have el : dot_S64x2048_S2048x512_S64x512_1_0_0_1_n_n.lhsIdx (ix2 d q) ((contrEquiv1 dot_S64x2048_S2048x512_S64x512_1_0_0_1_n_n 2048 rfl rfl).symm j) = ix2 d j :=
    funext fun x => Fin.ext (by
      match x with
      | ⟨0, _⟩ => exact mixDot_lhs0 _ _
      | ⟨1, _⟩ => exact (mixDot_lhs1 _ _).trans hj)
  have er : dot_S64x2048_S2048x512_S64x512_1_0_0_1_n_n.rhsIdx (ix2 d q) ((contrEquiv1 dot_S64x2048_S2048x512_S64x512_1_0_0_1_n_n 2048 rfl rfl).symm j) = ix2 j q :=
    funext fun x => Fin.ext (by
      match x with
      | ⟨0, _⟩ => exact (mixDot_rhs0 _ _).trans hj
      | ⟨1, _⟩ => exact mixDot_rhs1 _ _)
  rw [el, er]

/-! ## One head, from its raw scores to its mix

The operations the tile applies to one head's raw scores (a [512, 2048] block) and the head's value lanes (a
[2048, 64] block), named stage by stage, and each stage read at a position. -/

/-- The raw scores times the scale. -/
def scaled (s0 : FVec Ideal S512x2048 .f32) (c : Ideal .f32) : FVec Ideal S512x2048 .f32 :=
  mulf s0 (broadcast S512x2048 c)

/-- Each score less its row's maximum, exponentiated. -/
def expos (s : FVec Ideal S512x2048 .f32) : FVec Ideal S512x2048 .f32 :=
  exp (subf s (broadcastTo S512x2048
    (shapeCast S512x1 (multiReduction (F := Ideal) .maximumf [1] S512 s 0xFF800000#32 reduces_S512x2048_S512 (.inl rfl) rfl)
      shapeCasts_S512_S512x1) broadcasts_S512x1_S512x2048))

/-- Each exponential over its row's sum. -/
def weights (p : FVec Ideal S512x2048 .f32) : FVec Ideal S512x2048 .f32 :=
  divf p (broadcastTo S512x2048
    (shapeCast S512x1 (multiReduction (F := Ideal) .add [1] S512 p 0x00000000#32 reduces_S512x2048_S512 (.inl rfl) rfl)
      shapeCasts_S512_S512x1) broadcasts_S512x1_S512x2048)

/-- The head's mix: (values)ᵀ · (weights)ᵀ, transposed back. -/
def headCtx (s0 : FVec Ideal S512x2048 .f32) (c : Ideal .f32) (vh : FVec Ideal S2048x64 .bf16) : FVec Ideal S512x64 .f32 :=
  transpose S512x64 [1, 0]
    (matmul (F := Ideal) dot_S64x2048_S2048x512_S64x512_1_0_0_1_n_n none
      (transpose S64x2048 [1, 0] vh transposes_S2048x64_p1_0_S64x2048)
      (transpose S2048x512 [1, 0] (truncf .bf16 (weights (expos (scaled s0 c))) bitsLt_bf16_f32)
        transposes_S512x2048_p1_0_S2048x512)
      (constant (F := Ideal) S64x512 .f32 0x00000000#32))
    transposes_S64x512_p1_0_S512x64

theorem scaled_apply (s0 : FVec Ideal S512x2048 .f32) (c : Ideal .f32) (q : Fin 512) (k : Fin 2048) :
    scaled s0 c (ix2 q k) = s0 (ix2 q k) * c := rfl

/-- An exponential at (q, k): the score less the fold of max over row q. -/
theorem expos_apply (s : FVec Ideal S512x2048 .f32) (q : Fin 512) (k : Fin 2048) :
    expos s (ix2 q k) = Ideal.exp (s (ix2 q k) - Cert.Mha.rowMax (fun k' => s (ix2 q k'))) := by
  have hm : broadcastTo S512x2048
      (shapeCast S512x1 (multiReduction (F := Ideal) .maximumf [1] S512 s 0xFF800000#32 reduces_S512x2048_S512 (.inl rfl) rfl)
        shapeCasts_S512_S512x1) broadcasts_S512x1_S512x2048 (ix2 q k) = Cert.Mha.rowMax (fun k' => s (ix2 q k')) :=
    (col_apply _ shapeCasts_S512_S512x1 broadcasts_S512x1_S512x2048 q k).trans
      (rowMax_apply s reduces_S512x2048_S512 (.inl rfl) rfl q)
  exact congrArg (fun m => Ideal.exp (s (ix2 q k) - m)) hm

/-- A weight at (q, k): the exponential over the sum of row q's exponentials. -/
theorem weights_apply (p : FVec Ideal S512x2048 .f32) (q : Fin 512) (k : Fin 2048) :
    weights p (ix2 q k) = Ideal.div (p (ix2 q k)) (∑ k' : Fin 2048, p (ix2 q k')) := by
  have hs : broadcastTo S512x2048
      (shapeCast S512x1 (multiReduction (F := Ideal) .add [1] S512 p 0x00000000#32 reduces_S512x2048_S512 (.inl rfl) rfl)
        shapeCasts_S512_S512x1) broadcasts_S512x1_S512x2048 (ix2 q k) = ∑ k' : Fin 2048, p (ix2 q k') :=
    (col_apply _ shapeCasts_S512_S512x1 broadcasts_S512x1_S512x2048 q k).trans
      (rowSum_apply p reduces_S512x2048_S512 (.inl rfl) rfl q)
  exact congrArg (fun m => Ideal.div (p (ix2 q k)) m) hs

/-- The head's mix at (q, d): the value lanes d of all key tokens, mixed by the weights of row q of the scaled
    scores. The product arrives as value · weight; commuting each product gives weight · value. -/
theorem headCtx_apply (s0 : FVec Ideal S512x2048 .f32) (c : Ideal .f32) (vh : FVec Ideal S2048x64 .bf16) (q : Fin 512)
    (d : Fin 64) :
    headCtx s0 c vh (ix2 q d) = ∑ k : Fin 2048, Cert.Mha.weight (fun k' => s0 (ix2 q k') * c) k * vh (ix2 k d) := by
  unfold headCtx
  refine (transpose_ix2_apply _ transposes_S64x512_p1_0_S512x64 q d).trans ?_
  refine (mixDot_apply _ _ d q).trans ?_
  refine Finset.sum_congr rfl fun k _ => ?_
  refine (mul_comm _ _).trans ?_
  refine congrArg₂ (· * ·) ?_ (transpose_ix2_apply vh transposes_S2048x64_p1_0_S64x2048 d k)
  refine (transpose_ix2_apply _ transposes_S512x2048_p1_0_S2048x512 k q).trans ?_
  refine (weights_apply (expos (scaled s0 c)) q k).trans ?_
  simp only [expos_apply, scaled_apply]
  rfl

/-! ## The two heads of the tile

Head o of the pair (o = 0, 1) reads the slab at offset o of the split lanes of each of the three blocks. Its raw
scores and its value lanes, as the tile computes them, and what they are at a position. -/

/-- Head o's raw scores: its query lanes against its key lanes, transposed, into the zero block. -/
def rawScores (o : ℕ) (hq : S512x2x64.Slices ![0, o, 0] S512x1x64) (hk : S2048x2x64.Slices ![0, o, 0] S2048x1x64)
    (v0 : Vec Ideal S1x512x128 .bf16) (v2 : Vec Ideal S1x2048x128 .bf16) : FVec Ideal S512x2048 .f32 :=
  matmul (F := Ideal) dot_S512x64_S64x2048_S512x2048_1_0_0_1_n_n none
    (shapeCast S512x64 (extractStridedSlice S512x1x64 ![0, o, 0] (k1_pay2 (F := Ideal) v0) hq) shapeCasts_S512x1x64_S512x64)
    (transpose S64x2048 [1, 0]
      (shapeCast S2048x64 (extractStridedSlice S2048x1x64 ![0, o, 0] (k1_pay3 (F := Ideal) v2) hk) shapeCasts_S2048x1x64_S2048x64)
      transposes_S2048x64_p1_0_S64x2048)
    (constant (F := Ideal) S512x2048 .f32 0x00000000#32)

/-- Head o's value lanes. -/
def valLanes (o : ℕ) (hk : S2048x2x64.Slices ![0, o, 0] S2048x1x64) (v4 : Vec Ideal S1x2048x128 .bf16) :
    FVec Ideal S2048x64 .bf16 :=
  shapeCast S2048x64 (extractStridedSlice S2048x1x64 ![0, o, 0] (k1_pay4 (F := Ideal) v4) hk) shapeCasts_S2048x1x64_S2048x64

/-- Head 0's block is the mix of head 0's raw scores, the scale 1/8 and head 0's value lanes. -/
theorem k1_pay5_eq (v0 : Vec Ideal S1x512x128 .bf16) (v2 v4 : Vec Ideal S1x2048x128 .bf16) :
    k1_pay5 (F := Ideal) v0 v2 v4
      = headCtx (rawScores 0 slices_S512x2x64_o0_0_0_S512x1x64 slices_S2048x2x64_o0_0_0_S2048x1x64 v0 v2)
          (Scalar.ofBits .f32 0x3E000000#32) (valLanes 0 slices_S2048x2x64_o0_0_0_S2048x1x64 v4) := rfl

/-- Head 1's raw scores and value lanes are the slabs at offset 1. -/
theorem k1_pay7_eq (v0 : Vec Ideal S1x512x128 .bf16) (v2 : Vec Ideal S1x2048x128 .bf16) :
    k1_pay7 (F := Ideal) v0 v2 = rawScores 1 slices_S512x2x64_o0_1_0_S512x1x64 slices_S2048x2x64_o0_1_0_S2048x1x64 v0 v2 := rfl
theorem k1_pay6_eq (v4 : Vec Ideal S1x2048x128 .bf16) :
    k1_pay6 (F := Ideal) v4 = valLanes 1 slices_S2048x2x64_o0_1_0_S2048x1x64 v4 := rfl

/-- The tile's result: head 0's block and the mix of head 1's raw scores side by side along the lanes. -/
theorem k1_pay1_apply (v32 : FVec Ideal S512x64 .f32) (v38 : FVec Ideal S2048x64 .bf16) (v40 : FVec Ideal S512x2048 .f32)
    (c : Ideal .f32) (q : Fin 512) (l : Fin 128) :
    k1_pay1 (F := Ideal) v32 v38 v40 c (ix3 (0 : Fin 1) q l)
      = concatenate S512x128 1 [⟨S512x64, v32⟩, ⟨S512x64, headCtx v40 c v38⟩] concatenates_S512x64_S512x64_S512x128_d1 (ix2 q l) :=
  shapeCast_ab_1ab_apply
    (truncf .bf16 (concatenate S512x128 1 [⟨S512x64, v32⟩, ⟨S512x64, headCtx v40 c v38⟩] concatenates_S512x64_S512x64_S512x128_d1)
      bitsLt_bf16_f32)
    shapeCasts_S512x128_S1x512x128 0 q l

/-- Head e's raw score at (q, k), scaled, is the specification's score of the pair's head e. -/
theorem rawScores_apply (o : ℕ) (e : Fin 2) (he : e.val = o) (hq : S512x2x64.Slices ![0, o, 0] S512x1x64)
    (hk : S2048x2x64.Slices ![0, o, 0] S2048x1x64) (v0 : Vec Ideal S1x512x128 .bf16) (v2 : Vec Ideal S1x2048x128 .bf16)
    (q : Fin 512) (k : Fin 2048) :
    rawScores o hq hk v0 v2 (ix2 q k) * Cert.Mha.eighth = blockScore v0 v2 e q k := by
  unfold rawScores blockScore
  refine congrArg (· * Cert.Mha.eighth) ?_
  refine (scoreDot_apply _ _ q k).trans ?_
  refine Finset.sum_congr rfl fun d _ => ?_
  refine congrArg₂ (· * ·) ?_ ?_
  · exact headSlice_apply v0 o e he shapeCasts_S1x512x128_S512x128 shapeCasts_S512x128_S512x2x64 hq
      shapeCasts_S512x1x64_S512x64 q d
  · refine (transpose_ix2_apply _ transposes_S2048x64_p1_0_S64x2048 d k).trans ?_
    exact headSlice_apply v2 o e he shapeCasts_S1x2048x128_S2048x128 shapeCasts_S2048x128_S2048x2x64 hk
      shapeCasts_S2048x1x64_S2048x64 k d

/-- Head e's value lane d of key token k is lane 64·e + d of the value block. -/
theorem valLanes_apply (o : ℕ) (e : Fin 2) (he : e.val = o) (hk : S2048x2x64.Slices ![0, o, 0] S2048x1x64)
    (v4 : Vec Ideal S1x2048x128 .bf16) (k : Fin 2048) (d : Fin 64) :
    valLanes o hk v4 (ix2 k d) = v4 (ix3 (0 : Fin 1) k (lane e d)) :=
  headSlice_apply v4 o e he shapeCasts_S1x2048x128_S2048x128 shapeCasts_S2048x128_S2048x2x64 hk
    shapeCasts_S2048x1x64_S2048x64 k d

/-- One head of the pair, whole: its mix at (q, d) is the specification's, over the pair's head e. -/
theorem head_apply (o : ℕ) (e : Fin 2) (he : e.val = o) (hq : S512x2x64.Slices ![0, o, 0] S512x1x64)
    (hk : S2048x2x64.Slices ![0, o, 0] S2048x1x64) (v0 : Vec Ideal S1x512x128 .bf16) (v2 v4 : Vec Ideal S1x2048x128 .bf16)
    (q : Fin 512) (d : Fin 64) :
    headCtx (rawScores o hq hk v0 v2) (Scalar.ofBits .f32 0x3E000000#32) (valLanes o hk v4) (ix2 q d)
      = ∑ k : Fin 2048, Cert.Mha.weight (blockScore v0 v2 e q) k * v4 (ix3 (0 : Fin 1) k (lane e d)) := by
  refine (headCtx_apply _ _ _ q d).trans ?_
  have hS : (fun k' : Fin 2048 => rawScores o hq hk v0 v2 (ix2 q k') * (Scalar.ofBits .f32 0x3E000000#32 : Ideal .f32))
      = blockScore v0 v2 e q := funext fun k' => rawScores_apply o e he hq hk v0 v2 q k'
  exact Finset.sum_congr rfl fun k _ =>
    congrArg₂ (· * ·) (congrArg (fun S => Cert.Mha.weight S k) hS) (valLanes_apply o e he hk v4 k d)

/-! ## The tile at a position -/

/-- The tile's result at query token q and lane 64·e + d: head e's mix of the value lanes d. Lanes 0 … 63 read the
    first piece of the concatenation (head 0), lanes 64 … 127 the second (head 1). -/
theorem attn_block_apply (v0 : Vec Ideal S1x512x128 .bf16) (v2 v4 : Vec Ideal S1x2048x128 .bf16) (q : Fin 512) (e : Fin 2)
    (d : Fin 64) :
    k1_pay1 (F := Ideal) (k1_pay5 v0 v2 v4) (k1_pay6 v4) (k1_pay7 v0 v2) (Scalar.ofBits .f32 0x3E000000#32)
        (ix3 (0 : Fin 1) q (lane e d))
      = ∑ k : Fin 2048, Cert.Mha.weight (blockScore v0 v2 e q) k * v4 (ix3 (0 : Fin 1) k (lane e d)) := by
  refine (k1_pay1_apply _ _ _ _ q (lane e d)).trans ?_
  match e with
  | ⟨0, _⟩ =>
    refine (concatenate_pair_apply_left (1 : Fin S512x128.rank) _ _ concatenates_S512x64_S512x64_S512x128_d1
      (ix2 q (lane 0 d)) rfl (ix2 q d) (fun b => by
        match b with
        | ⟨0, _⟩ => rfl
        | ⟨1, _⟩ => show d.val = 64 * 0 + d.val; omega)).trans ?_
    rw [k1_pay5_eq]
    exact head_apply 0 0 rfl _ _ v0 v2 v4 q d
  | ⟨1, _⟩ =>
    refine (concatenate_pair_apply_right (1 : Fin S512x128.rank) _ _ concatenates_S512x64_S512x64_S512x128_d1
      (ix2 q (lane 1 d)) rfl rfl (ix2 q d) (fun b hb => by
        match b with
        | ⟨0, _⟩ => rfl
        | ⟨1, _⟩ => exact absurd rfl hb) (by show d.val + 64 = 64 * 1 + d.val; omega)).trans ?_
    rw [k1_pay7_eq, k1_pay6_eq]
    exact head_apply 1 1 rfl _ _ v0 v2 v4 q d

end Cert.KernelIdeal.AttnBlock

end
-- ==== Proof.Final1.lean ====
/-
  The attention region's output array as one function of its input array.

  The region's grid has a point for each sequence n, pair of heads hp and block qi of 512 query tokens. The point
  reads rows 512·qi … 512·qi + 511 of the 128 query lanes of the pair, all 2048 rows of the pair's 128 key lanes and
  of its 128 value lanes, and writes rows 512·qi … 512·qi + 511 of the pair's 128 context lanes. Lane 64·e + d of the
  pair is lane d of its head e. The points' output blocks tile the output array, so the array ends holding, at token
  (n, l) and context column 128·hp + 64·e + d, head e's mix of the value lanes d, weighted by the row of scores of
  token l against every token.
-/
import proofs.«166842_j9775345565972_2_alg».proof.Proof.FrmRegion1
import proofs.«166842_j9775345565972_2_alg».proof.Proof.AttnBlock
import proofs.«166842_j9775345565972_2_alg».proof.Proof.Spec
import Idealize.ShloMosaic.Lib.Pipeline.Value
import Idealize.ShloMosaic.Lib.ValueIdx

noncomputable section

open scoped BigOperators

namespace Cert.KernelIdeal.Final

open Cert.KernelIdeal Cert.KernelIdeal.Gen Cert.KernelIdeal.Frm Idealize.ShloMosaic Idealize.ShloMosaic.TcCoe Idealize.ShloMosaic.ValueIdx
open Idealize.SL Idealize.SL.RA Idealize.SL.Sem Cert.KernelIdeal.AttnBlock
open Idealize.ShloMosaic.Pipeline (Dat)

/-- A context column: lane 64·e + d of the pair of heads hp. -/
def pairCol (hp : Fin 8) (e : Fin 2) (d : Fin 64) : Fin 1024 := ⟨128 * hp.val + 64 * e.val + d.val, by omega⟩

/-- The same lane in part j (0 the queries, 1 the keys, 2 the values) of the fused projection. -/
def partCol (j : Fin 3) (hp : Fin 8) (e : Fin 2) (d : Fin 64) : Fin 3072 :=
  ⟨1024 * j.val + 128 * hp.val + 64 * e.val + d.val, by omega⟩

/-- Every context column is a lane of one head of one pair. -/
theorem pairCol_surj (c : Fin 1024) : ∃ hp e d, c = pairCol hp e d :=
  ⟨⟨c.val / 128, by omega⟩, ⟨c.val % 128 / 64, by omega⟩, ⟨c.val % 64, by omega⟩,
    Fin.ext (by show c.val = 128 * (c.val / 128) + 64 * (c.val % 128 / 64) + c.val % 64; omega)⟩

/-- Head e of pair hp at token (n, l): the mix of the value lanes d of every token, weighted by the row of scores of
    token l, over an array A of tokens by fused features. -/
def attn (A : S4x2048x3072.Idx → EReal) (n : Fin 4) (l : Fin 2048) (hp : Fin 8) (e : Fin 2) (d : Fin 64) : EReal :=
  ∑ k : Fin 2048, Cert.Mha.weight (fun k' => (∑ d' : Fin 64, A (ix3 n l (partCol 0 hp e d')) * A (ix3 n k' (partCol 1 hp e d')))
    * Cert.Mha.eighth) k * A (ix3 n k (partCol 2 hp e d))

/-- The pair of heads, the head of the pair and the lane of a context column. -/
def pairOf (c : Fin 1024) : Fin 8 := ⟨c.val / 128, by omega⟩
def headOfPair (c : Fin 1024) : Fin 2 := ⟨c.val % 128 / 64, by omega⟩
def laneOfHead (c : Fin 1024) : Fin 64 := ⟨c.val % 64, by omega⟩

/-- The whole output array: at token (n, l) and context column c, the column's pair, head and lane. -/
def G1 (A : S4x2048x3072.Idx → EReal) : S4x2048x1024.Idx → EReal := fun i =>
  attn A (i 0) (i 1) (pairOf (i 2)) (headOfPair (i 2)) (laneOfHead (i 2))

theorem G1_apply (A : S4x2048x3072.Idx → EReal) (n : Fin 4) (l : Fin 2048) (hp : Fin 8) (e : Fin 2) (d : Fin 64) :
    G1 A (ix3 n l (pairCol hp e d)) = attn A n l hp e d := by
  have hhp := hp.isLt; have he := e.isLt; have hd := d.isLt
  show attn A n l (pairOf (pairCol hp e d)) (headOfPair (pairCol hp e d)) (laneOfHead (pairCol hp e d)) = _
  have e1 : pairOf (pairCol hp e d) = hp := Fin.ext (by show (128 * hp.val + 64 * e.val + d.val) / 128 = hp.val; omega)
  have e2 : headOfPair (pairCol hp e d) = e := Fin.ext (by show (128 * hp.val + 64 * e.val + d.val) % 128 / 64 = e.val; omega)
  have e3 : laneOfHead (pairCol hp e d) = d := Fin.ext (by show (128 * hp.val + 64 * e.val + d.val) % 64 = d.val; omega)
  rw [e1, e2, e3]

/-- The offsets of a whole-buffer rectangle, all zero. -/
theorem hz : (![0, 0, 0] : Fin 3 → Nat) = fun _ => 0 := funext fun a => by fin_cases a <;> rfl

/-- The printed index maps, decided over the grid: the query block moves with the output block; the key and value
    blocks sit at the output block's sequence, row block 0, and 8 and 16 column blocks further; the output's block
    indices stay in their ranges. -/
theorem idx_facts : ∀ t : Fin cfg1.N, win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 3) = win1_3.index t (0 : Fin 3)
    ∧ win1_1.index t (1 : Fin 3) = 0
    ∧ win1_1.index t (2 : Fin 3) = 8 + win1_3.index t (2 : Fin 3)
    ∧ win1_2.index t (0 : Fin 3) = win1_3.index t (0 : Fin 3)
    ∧ win1_2.index t (1 : Fin 3) = 0
    ∧ win1_2.index t (2 : Fin 3) = 16 + win1_3.index t (2 : Fin 3)
    ∧ win1_3.index t (0 : Fin 3) ≤ 3 ∧ win1_3.index t (1 : Fin 3) ≤ 3 ∧ win1_3.index t (2 : Fin 3) ≤ 7 :=
  (by decide +kernel : ∀ t : Fin grid1.N, _)

/-- Every block of the output array is some point's. -/
theorem idx_onto : ∀ (q0 : Fin 4) (q1 : Fin 4) (q2 : Fin 8), ∃ t : Fin cfg1.N,
    win1_3.index t (0 : Fin 3) = q0.val ∧ win1_3.index t (1 : Fin 3) = q1.val ∧ win1_3.index t (2 : Fin 3) = q2.val :=
  (by decide +kernel : ∀ (q0 : Fin 4) (q1 : Fin 4) (q2 : Fin 8), ∃ t : Fin grid1.N,
    win1_3.index t (0 : Fin 3) = q0.val ∧ win1_3.index t (1 : Fin 3) = q1.val ∧ win1_3.index t (2 : Fin 3) = q2.val)

/-- An index of the output array is in point t's block iff each coordinate is in the block's range on its axis. -/
theorem mem_blk (t : Fin cfg1.N) (i : S4x2048x1024.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v12).slice (win1_3.rect t)).set ↔ _
  rw [View.set_slice_whole, Rect.mem_set_unit]
  exact Iff.rfl

/-- One point's block of results from the three blocks it read, when those blocks are rows 512·qi … of the query
    lanes of pair hp, and all rows of its key lanes and of its value lanes, of sequence n of an array A. -/
theorem point_apply (A : S4x2048x3072.Idx → EReal) (v0 : Vec Ideal S1x512x128 .bf16) (v2 v4 : Vec Ideal S1x2048x128 .bf16)
    (n : Fin 4) (hp : Fin 8) (qi : Fin 4)
    (h0 : ∀ (r : Fin 512) (e : Fin 2) (d : Fin 64),
      v0 (ix3 (0 : Fin 1) r (lane e d)) = A (ix3 n (⟨512 * qi.val + r.val, by omega⟩ : Fin 2048) (partCol 0 hp e d)))
    (h2 : ∀ (k : Fin 2048) (e : Fin 2) (d : Fin 64), v2 (ix3 (0 : Fin 1) k (lane e d)) = A (ix3 n k (partCol 1 hp e d)))
    (h4 : ∀ (k : Fin 2048) (e : Fin 2) (d : Fin 64), v4 (ix3 (0 : Fin 1) k (lane e d)) = A (ix3 n k (partCol 2 hp e d)))
    (r : Fin 512) (e : Fin 2) (d : Fin 64) :
    k1_pay1 (F := Ideal) (k1_pay5 v0 v2 v4) (k1_pay6 v4) (k1_pay7 v0 v2) (Scalar.ofBits .f32 0x3E000000#32)
        (ix3 (0 : Fin 1) r (lane e d))
      = attn A n (⟨512 * qi.val + r.val, by omega⟩ : Fin 2048) hp e d := by
  rw [attn_block_apply]
  unfold attn
  refine Finset.sum_congr rfl fun k _ => ?_
  rw [h4]
  refine congrArg (fun S => Cert.Mha.weight S k * A (ix3 n k (partCol 2 hp e d))) (funext fun k' => ?_)
  unfold blockScore
  refine congrArg (· * Cert.Mha.eighth) (Finset.sum_congr rfl fun d' _ => ?_)
  rw [h0, h2]

section
variable (V : (c : Dev nD) → (b : Ref sig .tc) → Buf (Elt Ideal) ((c : Thread nD τ).loc b))

set_option backward.isDefEq.respectTransparency.types false in
/-- What point t writes back is block t of G1 of the input array as the region finds it. -/
theorem flushed_eq (q : Fin cfg1.W → PosShare TreeShare) (c : Dev nD) (t : Fin cfg1.N) :
    (dat1 V q c).flushed 3 t = ((cfg1.win 3).blk t).view.read (Elt Ideal) (G1 (V c main_v11)) := by
  show (cfg1.win 3).cut (grid1.coords t) ((dat1 V q c).after 3 t) = _
  rw [after1_3]
  unfold out1_3
  rw [View.canon_unit_zero hz]
  simp only [View.ld_unit_zero (S := S1x512x128) hz, View.ld_unit_zero (S := S1x2048x128) hz]
  obtain ⟨e0, e1, e2, e3, e4, e5, e6, e7, e8, b0, b1, b2⟩ := idx_facts t
  have h0 : ∀ (r : Fin 512) (e : Fin 2) (d : Fin 64), iblk1 V c 0 t (ix3 (0 : Fin 1) r (lane e d))
      = V c main_v11 (ix3 (⟨win1_3.index t (0 : Fin 3), by omega⟩ : Fin 4)
          (⟨512 * (⟨win1_3.index t (1 : Fin 3), by omega⟩ : Fin 4).val + r.val, by omega⟩ : Fin 2048)
          (partCol 0 (⟨win1_3.index t (2 : Fin 3), by omega⟩ : Fin 8) e d)) := by
    intro r e d
    show V c main_v11 (((cfg1.win 0).blk t).view.emb (ix3 (0 : Fin 1) r (lane e d))) = V c main_v11 _
    refine congrArg (V c main_v11) (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * r.val = 512 * win1_3.index t (1 : Fin 3) + r.val; omega
    | ⟨2, _⟩ => show win1_0.index t (2 : Fin 3) * 128 + 1 * (64 * e.val + d.val) = 1024 * 0 + 128 * win1_3.index t (2 : Fin 3) + 64 * e.val + d.val; omega
  have h2 : ∀ (k : Fin 2048) (e : Fin 2) (d : Fin 64), iblk1 V c 1 t (ix3 (0 : Fin 1) k (lane e d))
      = V c main_v11 (ix3 (⟨win1_3.index t (0 : Fin 3), by omega⟩ : Fin 4) k
          (partCol 1 (⟨win1_3.index t (2 : Fin 3), by omega⟩ : Fin 8) e d)) := by
    intro k e d
    show V c main_v11 (((cfg1.win 1).blk t).view.emb (ix3 (0 : Fin 1) k (lane e d))) = V c main_v11 _
    refine congrArg (V c main_v11) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * k.val = k.val; omega
    | ⟨2, _⟩ => show win1_1.index t (2 : Fin 3) * 128 + 1 * (64 * e.val + d.val) = 1024 * 1 + 128 * win1_3.index t (2 : Fin 3) + 64 * e.val + d.val; omega
  have h4 : ∀ (k : Fin 2048) (e : Fin 2) (d : Fin 64), iblk1 V c 2 t (ix3 (0 : Fin 1) k (lane e d))
      = V c main_v11 (ix3 (⟨win1_3.index t (0 : Fin 3), by omega⟩ : Fin 4) k
          (partCol 2 (⟨win1_3.index t (2 : Fin 3), by omega⟩ : Fin 8) e d)) := by
    intro k e d
    show V c main_v11 (((cfg1.win 2).blk t).view.emb (ix3 (0 : Fin 1) k (lane e d))) = V c main_v11 _
    refine congrArg (V c main_v11) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * k.val = k.val; omega
    | ⟨2, _⟩ => show win1_2.index t (2 : Fin 3) * 128 + 1 * (64 * e.val + d.val) = 1024 * 2 + 128 * win1_3.index t (2 : Fin 3) + 64 * e.val + d.val; omega
  funext j
  obtain ⟨z, r, cc, rfl⟩ : ∃ (z : Fin 1) (r : Fin 512) (cc : Fin 128), j = ix3 z r cc := ⟨j 0, j 1, j 2, eq_ix3 j⟩
  obtain ⟨e, d, rfl⟩ := lane_surj cc
  obtain rfl : z = 0 := Subsingleton.elim _ _
  show k1_pay1 (F := Ideal) (k1_pay5 (iblk1 V c 0 t) (iblk1 V c 1 t) (iblk1 V c 2 t)) (k1_pay6 (iblk1 V c 2 t))
      (k1_pay7 (iblk1 V c 0 t) (iblk1 V c 1 t)) (Scalar.ofBits .f32 0x3E000000#32) (ix3 (0 : Fin 1) r (lane e d))
    = G1 (V c main_v11) (((cfg1.win 3).blk t).view.emb (ix3 (0 : Fin 1) r (lane e d)))
  have eo : ((cfg1.win 3).blk t).view.emb (ix3 (0 : Fin 1) r (lane e d))
      = ix3 (⟨win1_3.index t (0 : Fin 3), by omega⟩ : Fin 4)
          (⟨512 * (⟨win1_3.index t (1 : Fin 3), by omega⟩ : Fin 4).val + r.val, by omega⟩ : Fin 2048)
          (pairCol (⟨win1_3.index t (2 : Fin 3), by omega⟩ : Fin 8) e d) := by
    funext a; apply Fin.ext
    match a with
    | ⟨0, _⟩ => show win1_3.index t (0 : Fin 3) * 1 + 1 * 0 = win1_3.index t (0 : Fin 3); omega
    | ⟨1, _⟩ => show win1_3.index t (1 : Fin 3) * 512 + 1 * r.val = 512 * win1_3.index t (1 : Fin 3) + r.val; omega
    | ⟨2, _⟩ => show win1_3.index t (2 : Fin 3) * 128 + 1 * (64 * e.val + d.val) = 128 * win1_3.index t (2 : Fin 3) + 64 * e.val + d.val; omega
  rw [eo, G1_apply]
  exact point_apply (V c main_v11) (iblk1 V c 0 t) (iblk1 V c 1 t) (iblk1 V c 2 t)
    (⟨win1_3.index t (0 : Fin 3), by omega⟩ : Fin 4) (⟨win1_3.index t (2 : Fin 3), by omega⟩ : Fin 8)
    (⟨win1_3.index t (1 : Fin 3), by omega⟩ : Fin 4) h0 h2 h4 r e d

/-- Every index of the output array is in some point's block: the blocks tile the array. -/
theorem cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, q0, q1, q2⟩ := idx_onto ⟨(i 0).val, hi0⟩ ⟨(i 1).val / 512, by omega⟩ ⟨(i 2).val / 128, by omega⟩
  have q0' : win1_3.index t (0 : Fin 3) = (i 0).val := q0
  have q1' : win1_3.index t (1 : Fin 3) = (i 1).val / 512 := q1
  have q2' : win1_3.index t (2 : Fin 3) = (i 2).val / 128 := q2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

set_option backward.isDefEq.respectTransparency.types false in
/-- So the output array ends holding G1 of the input array as the region finds it. -/
theorem final1 (q : Fin cfg1.W → PosShare TreeShare) (c : Dev nD) :
    (dat1 V q c).arrAt 3 cfg1.N = G1 (V c main_v11) :=
  (dat1 V q c).arrAt_eq_of_cover 3 (G1 (V c main_v11)) (fun t _ => flushed_eq V q c t) cover

/-- The region's input array (tokens by fused features) on core c, as a function on its indices. -/
abbrev arr11 (c : Dev nD) : S4x2048x3072.Idx → EReal := V c main_v11

set_option backward.isDefEq.respectTransparency.types false in
/-- The output array at token (n, l) and lane 64·e + d of the pair of heads hp. -/
theorem final1_apply (q : Fin cfg1.W → PosShare TreeShare) (c : Dev nD) (n : Fin 4) (l : Fin 2048) (hp : Fin 8) (e : Fin 2) (d : Fin 64) :
    (dat1 V q c).arrAt 3 cfg1.N (ix3 n l (pairCol hp e d))
      = ∑ k : Fin 2048, Cert.Mha.weight (fun k' => (∑ d' : Fin 64, arr11 V c (ix3 n l (partCol 0 hp e d')) * arr11 V c (ix3 n k' (partCol 1 hp e d'))) * Cert.Mha.eighth) k * arr11 V c (ix3 n k (partCol 2 hp e d)) := by
  rw [final1 V q c, G1_apply]
  rfl

set_option backward.isDefEq.respectTransparency.types false in
/-- The same over any function A the input array is known to be. -/
theorem final1_apply_of (q : Fin cfg1.W → PosShare TreeShare) (c : Dev nD) (A : S4x2048x3072.Idx → EReal) (hA : arr11 V c = A)
    (n : Fin 4) (l : Fin 2048) (hp : Fin 8) (e : Fin 2) (d : Fin 64) :
    (dat1 V q c).arrAt 3 cfg1.N (ix3 n l (pairCol hp e d))
      = ∑ k : Fin 2048, Cert.Mha.weight (fun k' => (∑ d' : Fin 64, A (ix3 n l (partCol 0 hp e d')) * A (ix3 n k' (partCol 1 hp e d'))) * Cert.Mha.eighth) k * A (ix3 n k (partCol 2 hp e d)) := by
  rw [← hA]
  exact final1_apply V q c n l hp e d

end

end Cert.KernelIdeal.Final

end
-- ==== Proof.Final2.lean ====
/-
  The last region's output array as one function of its three input arrays.

  The region walks 16 grid points; point t multiplies rows 512·t … 512·t + 511 of the flattened context by the whole
  output weight, adds the bias row, and writes the 512 × 1024 tile back at rows 512·t … 512·t + 511 of the output. A
  tile's element (p, o) is the dot product of the tile's row p with the weight's column o plus the bias at o; row p of
  point t's input tile is row 512·t + p of the input array, and the tile lands at the same rows of the output. The 16
  tiles cover the 8192 rows, so the output array's element (r, o) is row r of the input against column o of the
  weight, plus the bias at o.
-/
import proofs.«166842_j9775345565972_2_alg».proof.Proof.FrmRegion2
import proofs.«166842_j9775345565972_2_alg».proof.Proof.DenseBlock
import Idealize.ShloMosaic.Lib.Pipeline.Value
import Idealize.ShloMosaic.Lib.ValueIdx

noncomputable section

open scoped BigOperators

namespace Cert.KernelIdeal.Final

open Cert.KernelIdeal Cert.KernelIdeal.Gen Cert.KernelIdeal.Frm Idealize.ShloMosaic Idealize.ShloMosaic.TcCoe Idealize.ShloMosaic.ValueIdx
open Idealize.SL Idealize.SL.RA

/-- The zero offsets of a whole-buffer rectangle of rank 2. -/
theorem zero_off2b : (![0, 0] : Fin 2 → Nat) = fun _ => 0 := funext fun a => by fin_cases a <;> rfl

/-- Where each window's block sits at grid point `t`: the row tiles of the input and of the output are tile `t`; the
    weight and the bias are whole. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The output array as a function of the input arrays: element `(r, g)` is row `r` of `X` against column `g` of
    `Wk`, plus `bk` at `g`. -/
def G2 (X : S8192x1024.Idx → EReal) (Wk : S1024x1024.Idx → EReal) (bk : S1x1024.Idx → EReal) : S8192x1024.Idx → EReal :=
  fun i => (∑ k : Fin 1024, X (ix2 (⟨(i 0).val, idx2_lt0 i⟩ : Fin 8192) k) * Wk (ix2 k (⟨(i 1).val, idx2_lt1 i⟩ : Fin 1024)))
    + bk (ix2 (0 : Fin 1) (⟨(i 1).val, idx2_lt1 i⟩ : Fin 1024))

theorem G2_apply (X : S8192x1024.Idx → EReal) (Wk : S1024x1024.Idx → EReal) (bk : S1x1024.Idx → EReal) (r : Fin 8192) (g : Fin 1024) :
    G2 X Wk bk (ix2 r g) = (∑ k : Fin 1024, X (ix2 r k) * Wk (ix2 k g)) + bk (ix2 (0 : Fin 1) g) := rfl

/-- A tile's element at any index of the tile, by its coordinates. -/
theorem pay2_at (x0 : Vec Ideal S512x1024 .bf16) (x1 : Vec Ideal S1024x1024 .bf16) (x2 : Vec Ideal S1x1024 .f32) (j : S512x1024.Idx) :
    k2_pay1 (F := Ideal) x0 x1 x2 j
      = (∑ k : Fin 1024, x0 (ix2 (⟨(j 0).val, idx2_lt0 j⟩ : Fin 512) k) * x1 (ix2 k (⟨(j 1).val, idx2_lt1 j⟩ : Fin 1024)))
        + x2 (ix2 (0 : Fin 1) (⟨(j 1).val, idx2_lt1 j⟩ : Fin 1024)) := by
  have hj : j = ix2 (⟨(j 0).val, idx2_lt0 j⟩ : Fin 512) (⟨(j 1).val, idx2_lt1 j⟩ : Fin 1024) :=
    funext fun a => match a with | ⟨0, _⟩ => rfl | ⟨1, _⟩ => rfl
  exact (congrArg (k2_pay1 (F := Ideal) x0 x1 x2) hj).trans (DenseBlock.k2_pay1_apply x0 x1 x2 _ _)

section
variable (V : (c : Dev nD) → (b : Ref sig .tc) → Buf (Elt Ideal) ((c : Thread nD τ).loc b))

set_option backward.isDefEq.respectTransparency.types false in
/-- Point `t`'s input tile is rows `512·t …` of the input array. -/
theorem iblk2_0_apply (c : Dev nD) (t : Fin cfg2.N) (y : S512x1024.Idx) (i : S8192x1024.Idx)
    (h0 : (i 0).val = 512 * t.val + (y 0).val) (h1 : (i 1).val = (y 1).val) :
    (iblk2 V c 0 t : Vec Ideal S512x1024 .bf16) y = (V c main_v16 : S8192x1024.Idx → EReal) i := by
  obtain ⟨e0, e1, -⟩ := idx_facts2 t
  unfold iblk2
  rw [View.read_apply]
  show V c main_v16 _ = V c main_v16 _
  refine congrArg (V c main_v16) (funext fun a => Fin.ext ?_)
  match a with
  | ⟨0, _⟩ => show win2_0.index t (0 : Fin 2) * 512 + 1 * (y 0).val = (i 0).val; omega
  | ⟨1, _⟩ => show win2_0.index t (1 : Fin 2) * 1024 + 1 * (y 1).val = (i 1).val; omega

set_option backward.isDefEq.respectTransparency.types false in
/-- The weight's one tile is the weight. -/
theorem iblk2_1_apply (c : Dev nD) (t : Fin cfg2.N) (y : S1024x1024.Idx) :
    (iblk2 V c 1 t : Vec Ideal S1024x1024 .bf16) y = (V c main_v14 : S1024x1024.Idx → EReal) y := by
  obtain ⟨-, -, e0, e1, -⟩ := idx_facts2 t
  unfold iblk2
  rw [View.read_apply]
  show V c main_v14 _ = V c main_v14 _
  refine congrArg (V c main_v14) (funext fun a => Fin.ext ?_)
  match a with
  | ⟨0, _⟩ => show win2_1.index t (0 : Fin 2) * 1024 + 1 * (y 0).val = (y 0).val; omega
  | ⟨1, _⟩ => show win2_1.index t (1 : Fin 2) * 1024 + 1 * (y 1).val = (y 1).val; omega

set_option backward.isDefEq.respectTransparency.types false in
/-- The bias row's one tile is the bias row. -/
theorem iblk2_2_apply (c : Dev nD) (t : Fin cfg2.N) (y : S1x1024.Idx) :
    (iblk2 V c 2 t : Vec Ideal S1x1024 .f32) y = (V c main_v15 : S1x1024.Idx → EReal) y := by
  obtain ⟨-, -, -, -, e0, e1, -⟩ := idx_facts2 t
  unfold iblk2
  rw [View.read_apply]
  show V c main_v15 _ = V c main_v15 _
  refine congrArg (V c main_v15) (funext fun a => Fin.ext ?_)
  match a with
  | ⟨0, _⟩ => show win2_2.index t (0 : Fin 2) * 1 + 1 * (y 0).val = (y 0).val; omega
  | ⟨1, _⟩ => show win2_2.index t (1 : Fin 2) * 1024 + 1 * (y 1).val = (y 1).val; omega

set_option backward.isDefEq.respectTransparency.types false in
/-- What point `t` writes back is tile `t` of `G2` of the input arrays. -/
theorem flushed2_eq (q : Fin cfg2.W → PosShare TreeShare) (c : Dev nD) (t : Fin cfg2.N) :
    (dat2 V q c).flushed 3 t
      = ((cfg2.win 3).blk t).view.read (Elt Ideal) (G2 (V c main_v16) (V c main_v14) (V c main_v15)) := by
  show (cfg2.win 3).cut (grid2.coords t) ((dat2 V q c).after 3 t) = _
  rw [after2_3]
  unfold out2_3
  rw [View.canon_unit_zero zero_off2b]
  simp only [View.ld_unit_zero (S := S512x1024) zero_off2b, View.ld_unit_zero (S := S1024x1024) zero_off2b,
    View.ld_unit_zero (S := S1x1024) zero_off2b]
  obtain ⟨-, -, -, -, -, -, e0, e1⟩ := idx_facts2 t
  funext j
  show k2_pay1 (F := Ideal) (iblk2 V c 0 t) (iblk2 V c 1 t) (iblk2 V c 2 t) j
    = G2 (V c main_v16) (V c main_v14) (V c main_v15) (((cfg2.win 3).blk t).view.emb j)
  refine (pay2_at _ _ _ j).trans ?_
  unfold G2
  have hr : ((((cfg2.win 3).blk t).view.emb j) 0).val = 512 * t.val + (j 0).val := by
    show win2_3.index t (0 : Fin 2) * 512 + 1 * (j 0).val = _
    omega
  have hg : ((((cfg2.win 3).blk t).view.emb j) 1).val = (j 1).val := by
    show win2_3.index t (1 : Fin 2) * 1024 + 1 * (j 1).val = _
    omega
  refine congrArg₂ (· + ·) (Finset.sum_congr rfl fun k _ => congrArg₂ (· * ·) ?_ ?_) ?_
  · exact iblk2_0_apply V c t _ _ hr rfl
  · refine (iblk2_1_apply V c t _).trans (congrArg (V c main_v14) (funext fun a => Fin.ext ?_))
    match a with
    | ⟨0, _⟩ => rfl
    | ⟨1, _⟩ => exact hg.symm
  · refine (iblk2_2_apply V c t _).trans (congrArg (V c main_v15) (funext fun a => Fin.ext ?_))
    match a with
    | ⟨0, _⟩ => rfl
    | ⟨1, _⟩ => exact hg.symm

/-- An index of the output array is in point `t`'s tile iff each coordinate is in the tile's range on its axis. -/
theorem mem_blk2 (t : Fin cfg2.N) (i : S8192x1024.Idx) :
    i ∈ ((cfg2.win 3).blk t).view.set
      ↔ ∀ a : Fin 2, win2_3.index t a * S512x1024.size a ≤ (i a).val ∧ (i a).val < win2_3.index t a * S512x1024.size a + S512x1024.size a := by
  show i ∈ ((View.whole main_v17).slice (win2_3.rect t)).set ↔ _
  rw [View.set_slice_whole, Rect.mem_set_unit]
  exact Iff.rfl

/-- Every index of the output array is in the tile of the point its row falls in. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : grid2.N = 16 := N_2
  let t : Fin cfg2.N := ⟨(i 0).val / 512, by show (i 0).val / 512 < grid2.N; omega⟩
  obtain ⟨-, -, -, -, -, -, e0, e1⟩ := idx_facts2 t
  have et : t.val = (i 0).val / 512 := rfl
  refine ⟨t, flush2_3 t, ?_⟩
  rw [mem_blk2]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 1024 ≤ (i 1).val ∧ (i 1).val < win2_3.index t (1 : Fin 2) * 1024 + 1024
    omega

set_option backward.isDefEq.respectTransparency.types false in
/-- The output array after the region's 16 points is `G2` of the input arrays. -/
theorem final2 (q : Fin cfg2.W → PosShare TreeShare) (c : Dev nD) :
    (dat2 V q c).arrAt 3 cfg2.N = G2 (V c main_v16) (V c main_v14) (V c main_v15) :=
  (dat2 V q c).arrAt_eq_of_cover 3 (G2 (V c main_v16) (V c main_v14) (V c main_v15)) (fun t _ => flushed2_eq V q c t) cover2

set_option backward.isDefEq.respectTransparency.types false in
/-- Element `(r, g)` of the output array: row `r` of the input against column `g` of the weight, plus the bias at `g`. -/
theorem final2_apply (q : Fin cfg2.W → PosShare TreeShare) (c : Dev nD) (r : Fin 8192) (g : Fin 1024) :
    (dat2 V q c).arrAt 3 cfg2.N (ix2 r g)
      = @HAdd.hAdd EReal EReal EReal _
          (∑ k : Fin 1024, @HMul.hMul EReal EReal EReal _ (V c main_v16 (ix2 r k)) (V c main_v14 (ix2 k g)))
          (V c main_v15 (ix2 (0 : Fin 1) g)) :=
  (congrFun (final2 V q c) (ix2 r g)).trans (G2_apply _ _ _ r g)

end

end Cert.KernelIdeal.Final

end
-- ==== Proof.HostStages.lean ====
/-
  The layout stages around the three kernels, read at explicit coordinates.

  Before the first kernel the fused weight, stored with its 3072 rows ordered head-major (row 192·h + 64·j + d is lane
  d of part j of head h), is regrouped part-major (row 1024·j + 64·h + d) and transposed, so that column
  1024·j + 64·h + d of the kernel's weight is the original row 192·h + 64·j + d; the bias is regrouped the same way and
  made a one-row matrix; the batch of 4 × 2048 tokens is flattened to 8192 rows, token (n, l) being row 2048·n + l.
  Between the kernels the 8192 rows are split into (n, l) again and flattened again; the output weight is transposed
  and the output bias made a one-row matrix. Every one of these moves an element without changing it, and a format
  change is the identity on extended reals: each stage below says which element of its operand the stage's element is.
-/
import proofs.«166842_j9775345565972_2_alg».proof.Proof.Gen.KernelIdeal
import proofs.«166842_j9775345565972_2_alg».proof.Proof.Spec
import Idealize.ShloMosaic.Lib.Pipeline.Value
import Idealize.ShloMosaic.Lib.ValueIdx
import Idealize.ShloMosaic.Lib.ValueLayout

noncomputable section

namespace Cert.KernelIdeal.HostStages

open Cert.KernelIdeal Cert.KernelIdeal.Gen Idealize.ShloMosaic Idealize.ShloMosaic.ValueIdx

/-- The kernel's own feature order, part-major: feature `1024·j + 64·h + d` is lane `d` of part `j` of head `h`. -/
def kfeat (j : Fin 3) (h : Fin 16) (d : Fin 64) : Fin 3072 := ⟨1024 * j.val + 64 * h.val + d.val, by omega⟩

/-- Token `(n, l)` as a row of the flattened batch. -/
def row (n : Fin 4) (l : Fin 2048) : Fin 8192 := ⟨2048 * n.val + l.val, by omega⟩

/-- Every feature is lane `d` of part `j` of head `h` for some `j`, `h`, `d`. -/
theorem kfeat_surj (g : Fin 3072) : ∃ j h d, g = kfeat j h d :=
  ⟨⟨g.val / 1024, by omega⟩, ⟨g.val % 1024 / 64, by omega⟩, ⟨g.val % 64, by omega⟩, Fin.ext (by
    show g.val = 1024 * (g.val / 1024) + 64 * (g.val % 1024 / 64) + g.val % 64
    omega)⟩

/-- Every row of the flattened batch is a token `(n, l)`. -/
theorem row_surj (r : Fin 8192) : ∃ n l, r = row n l :=
  ⟨⟨r.val / 2048, by omega⟩, ⟨r.val % 2048, by omega⟩, Fin.ext (by
    show r.val = 2048 * (r.val / 2048) + r.val % 2048
    omega)⟩

/-- The weight the first kernel multiplies by: its entry at row `c`, column `1024·j + 64·h + d` is the original
    weight's entry at row `192·h + 64·j + d`, column `c`. -/
theorem wqkv_stage (W : FVec Ideal S3072x1024 .f32) (c : Fin 1024) (j : Fin 3) (h : Fin 16) (d : Fin 64) :
    truncf .bf16 (transpose S1024x3072 [1, 0] (shapeCast S3072x1024 (transpose S3x16x64x1024 [1, 0, 2, 3] (shapeCast S16x3x64x1024 W shapeCasts_S3072x1024_S16x3x64x1024) transposes_S16x3x64x1024_S3x16x64x1024_1_0_2_3) shapeCasts_S3x16x64x1024_S3072x1024) transposes_S3072x1024_S1024x3072_1_0) bitsLt_bf16_f32 (ix2 c (kfeat j h d))
      = W (ix2 (Cert.Mha.feat h j d) c) := by
  refine (truncf_apply (ψ := .bf16) _ bitsLt_bf16_f32 _).trans ?_
  refine (transpose_ix2_apply _ transposes_S3072x1024_S1024x3072_1_0 c (kfeat j h d)).trans ?_
  refine (shapeCast_apply _ shapeCasts_S3x16x64x1024_S3072x1024 _ (ix4 j h d c) ?_).trans ?_
  · rw [Shape.rowMajor_val_four, Shape.rowMajor_val_two]
    show ((j.val * 16 + h.val) * 64 + d.val) * 1024 + c.val = (1024 * j.val + 64 * h.val + d.val) * 1024 + c.val
    omega
  refine (transpose_apply [1, 0, 2, 3] _ transposes_S16x3x64x1024_S3x16x64x1024_1_0_2_3 _ (ix4 h j d c)
    (fun b => match b with | ⟨0, _⟩ => rfl | ⟨1, _⟩ => rfl | ⟨2, _⟩ => rfl | ⟨3, _⟩ => rfl)).trans ?_
  exact shapeCast_apply W shapeCasts_S3072x1024_S16x3x64x1024 _ (ix2 (Cert.Mha.feat h j d) c) (by
    rw [Shape.rowMajor_val_two, Shape.rowMajor_val_four]
    show (192 * h.val + 64 * j.val + d.val) * 1024 + c.val = ((h.val * 3 + j.val) * 64 + d.val) * 1024 + c.val
    omega)

/-- The bias row the first kernel adds: its entry `1024·j + 64·h + d` is the original bias's entry `192·h + 64·j + d`. -/
theorem bqkv_stage (b : FVec Ideal S3072 .f32) (j : Fin 3) (h : Fin 16) (d : Fin 64) :
    shapeCast S1x3072 (shapeCast S3072 (transpose S3x16x64 [1, 0, 2] (shapeCast S16x3x64 b shapeCasts_S3072_S16x3x64) transposes_S16x3x64_S3x16x64_1_0_2) shapeCasts_S3x16x64_S3072) shapeCasts_S3072_S1x3072 (ix2 (0 : Fin 1) (kfeat j h d))
      = b (ix1 (Cert.Mha.feat h j d)) := by
  refine (shapeCast_a_1a_apply _ shapeCasts_S3072_S1x3072 (0 : Fin 1) (kfeat j h d)).trans ?_
  refine (shapeCast_apply _ shapeCasts_S3x16x64_S3072 _ (ix3 j h d) ?_).trans ?_
  · rw [Shape.rowMajor_val_three, Shape.rowMajor_val_one]
    show (j.val * 16 + h.val) * 64 + d.val = 1024 * j.val + 64 * h.val + d.val
    omega
  refine (transpose_apply [1, 0, 2] _ transposes_S16x3x64_S3x16x64_1_0_2 _ (ix3 h j d)
    (fun a => match a with | ⟨0, _⟩ => rfl | ⟨1, _⟩ => rfl | ⟨2, _⟩ => rfl)).trans ?_
  exact shapeCast_apply b shapeCasts_S3072_S16x3x64 _ (ix1 (Cert.Mha.feat h j d)) (by
    rw [Shape.rowMajor_val_one, Shape.rowMajor_val_three]
    show 192 * h.val + 64 * j.val + d.val = (h.val * 3 + j.val) * 64 + d.val
    omega)

/-- The flattened batch: row `2048·n + l` is token `(n, l)`. -/
theorem x_stage (x : FVec Ideal S4x2048x1024 .f32) (n : Fin 4) (l : Fin 2048) (c : Fin 1024) :
    shapeCast S8192x1024 x shapeCasts_S4x2048x1024_S8192x1024 (ix2 (row n l) c) = x (ix3 n l c) :=
  shapeCast_apply x shapeCasts_S4x2048x1024_S8192x1024 _ (ix3 n l c) (by
    rw [Shape.rowMajor_val_three, Shape.rowMajor_val_two]
    show (n.val * 2048 + l.val) * 1024 + c.val = (2048 * n.val + l.val) * 1024 + c.val
    omega)

/-- The first kernel's result split into sequences again: token `(n, l)` is row `2048·n + l`. -/
theorem qkv_unflatten (A : FVec Ideal S8192x3072 .bf16) (n : Fin 4) (l : Fin 2048) (g : Fin 3072) :
    shapeCast S4x2048x3072 A shapeCasts_S8192x3072_S4x2048x3072 (ix3 n l g) = A (ix2 (row n l) g) :=
  shapeCast_apply A shapeCasts_S8192x3072_S4x2048x3072 _ (ix2 (row n l) g) (by
    rw [Shape.rowMajor_val_two, Shape.rowMajor_val_three]
    show (2048 * n.val + l.val) * 3072 + g.val = (n.val * 2048 + l.val) * 3072 + g.val
    omega)

/-- The weight the last kernel multiplies by is the output weight transposed. -/
theorem wout_stage (Wo : FVec Ideal S1024x1024 .f32) (c o : Fin 1024) :
    truncf .bf16 (transpose S1024x1024 [1, 0] Wo transposes_S1024x1024_S1024x1024_1_0) bitsLt_bf16_f32 (ix2 c o) = Wo (ix2 o c) :=
  (truncf_apply (ψ := .bf16) _ bitsLt_bf16_f32 _).trans (transpose_ix2_apply Wo transposes_S1024x1024_S1024x1024_1_0 c o)

/-- The bias row the last kernel adds is the output bias. -/
theorem bout_stage (bo : FVec Ideal S1024 .f32) (o : Fin 1024) :
    shapeCast S1x1024 bo shapeCasts_S1024_S1x1024 (ix2 (0 : Fin 1) o) = bo (ix1 o) :=
  shapeCast_a_1a_apply bo shapeCasts_S1024_S1x1024 (0 : Fin 1) o

/-- The attention kernel's result flattened: row `2048·n + l` is token `(n, l)`. -/
theorem ctx_flatten (C : FVec Ideal S4x2048x1024 .bf16) (n : Fin 4) (l : Fin 2048) (c : Fin 1024) :
    shapeCast S8192x1024 C shapeCasts_S4x2048x1024_S8192x1024 (ix2 (row n l) c) = C (ix3 n l c) :=
  shapeCast_apply C shapeCasts_S4x2048x1024_S8192x1024 _ (ix3 n l c) (by
    rw [Shape.rowMajor_val_three, Shape.rowMajor_val_two]
    show (n.val * 2048 + l.val) * 1024 + c.val = (2048 * n.val + l.val) * 1024 + c.val
    omega)

/-- The last kernel's result split into sequences: token `(n, l)` is row `2048·n + l`. -/
theorem out_unflatten (O : FVec Ideal S8192x1024 .f32) (n : Fin 4) (l : Fin 2048) (o : Fin 1024) :
    shapeCast S4x2048x1024 O shapeCasts_S8192x1024_S4x2048x1024 (ix3 n l o) = O (ix2 (row n l) o) :=
  shapeCast_apply O shapeCasts_S8192x1024_S4x2048x1024 _ (ix2 (row n l) o) (by
    rw [Shape.rowMajor_val_two, Shape.rowMajor_val_three]
    show (2048 * n.val + l.val) * 1024 + o.val = (n.val * 2048 + l.val) * 1024 + o.val
    omega)

end Cert.KernelIdeal.HostStages

end
-- ==== Proof.FinalAll.lean ====
/-
  What the kernel's program ends with: following the eight boundaries of its run from the launch memory, the result
  buffer holds the multi-head attention layer of the five argument arrays.

  The first host stretch reorders the projection's weight rows and bias entries from head-major (feature
  192·h + 64·j + d) to part-major (column 1024·j + 64·h + d), transposes the weight, and flattens the batch to 8192
  rows; the first region computes the affine map row by row, so column 1024·j + 64·h + d of row 2048·n + l holds the
  projection's feature (h, j, d) of token (n, l). The second region, for a block of queries and a pair of heads, reads
  the query, key and value lanes of that pair at columns 128·hp, 1024 + 128·hp, 2048 + 128·hp — head 2·hp + e in lanes
  64·e … 64·e + 63 — and leaves each head's context side by side: context column 64·h + d. The third region is the last
  affine map, again row by row over the flattened batch, and the last host operation restores the batch axes.
-/
import proofs.«166842_j9775345565972_2_alg».proof.Proof.FrmRun
import proofs.«166842_j9775345565972_2_alg».proof.Proof.Final0
import proofs.«166842_j9775345565972_2_alg».proof.Proof.Final1
import proofs.«166842_j9775345565972_2_alg».proof.Proof.Final2
import proofs.«166842_j9775345565972_2_alg».proof.Proof.HostStages
import proofs.«166842_j9775345565972_2_alg».proof.Proof.Spec
import Idealize.ShloMosaic.Lib.StableHlo.Run

noncomputable section

namespace Cert.KernelIdeal.Final

open Cert.KernelIdeal Cert.KernelIdeal.Gen Cert.KernelIdeal.Frm Cert.KernelIdeal.HostStages
open Idealize.ShloMosaic Idealize.ShloMosaic.TcCoe Idealize.ShloMosaic.ValueIdx Idealize.ShloMosaic.StableHlo
open Idealize.SL.Sem
open Idealize.SL Idealize.SL.RA
open scoped BigOperators

variable (m : (ℓ : Loc nD τ sig) → Buf (Elt Ideal) ℓ) (c : Dev nD)

/-- The five argument arrays as launched. -/
abbrev a0 : FVec Ideal S4x2048x1024 .f32 := m ((c : Thread nD τ).loc main_arg0)
abbrev a1 : FVec Ideal S3072x1024 .f32 := m ((c : Thread nD τ).loc main_arg1)
abbrev a2 : FVec Ideal S3072 .f32 := m ((c : Thread nD τ).loc main_arg2)
abbrev a3 : FVec Ideal S1024x1024 .f32 := m ((c : Thread nD τ).loc main_arg3)
abbrev a4 : FVec Ideal S1024 .f32 := m ((c : Thread nD τ).loc main_arg4)

/-! ## The host stretches, read -/

theorem v9_eq : (Frm.V1 m c main_v9 : FVec Ideal S8192x1024 .f32) = shapeCast S8192x1024 (a0 m c) shapeCasts_S4x2048x1024_S8192x1024 := by
  show StableHlo.after hostOps0 (W0 m c) (Proc.devRef .tc main_v9) = _
  after_results; rfl
theorem v7_eq : (Frm.V1 m c main_v7 : FVec Ideal S1024x3072 .bf16) = truncf .bf16 (transpose S1024x3072 [1, 0] (shapeCast S3072x1024 (transpose S3x16x64x1024 [1, 0, 2, 3] (shapeCast S16x3x64x1024 (a1 m c) shapeCasts_S3072x1024_S16x3x64x1024) transposes_S16x3x64x1024_S3x16x64x1024_1_0_2_3) shapeCasts_S3x16x64x1024_S3072x1024) transposes_S3072x1024_S1024x3072_1_0) bitsLt_bf16_f32 := by
  show StableHlo.after hostOps0 (W0 m c) (Proc.devRef .tc main_v7) = _
  after_results; rfl
theorem v8_eq : (Frm.V1 m c main_v8 : FVec Ideal S1x3072 .f32) = shapeCast S1x3072 (shapeCast S3072 (transpose S3x16x64 [1, 0, 2] (shapeCast S16x3x64 (a2 m c) shapeCasts_S3072_S16x3x64) transposes_S16x3x64_S3x16x64_1_0_2) shapeCasts_S3x16x64_S3072) shapeCasts_S3072_S1x3072 := by
  show StableHlo.after hostOps0 (W0 m c) (Proc.devRef .tc main_v8) = _
  after_results; rfl
theorem v11_eq : (Frm.V3 m c main_v11 : FVec Ideal S4x2048x3072 .bf16) = shapeCast S4x2048x3072 ((dat0 (Frm.V1 m) qFull c).arrAt 3 cfg0.N) shapeCasts_S8192x3072_S4x2048x3072 := by
  show StableHlo.after hostOps1 (W2 m c) (Proc.devRef .tc main_v11) = _
  after_results
  exact congrArg (fun x => shapeCast S4x2048x3072 x shapeCasts_S8192x3072_S4x2048x3072) (W2_arr m c 3)
theorem w4_arg3 : W4 m c (Proc.devRef .tc main_arg3) = a3 m c :=
  (W4_of_ne m c main_arg3 (by decide)).trans <| (StableHlo.after_of_writes_sub hostOps1 _ hostOps1_writes (by decide)).trans <|
  (W2_of_ne m c main_arg3 (by decide)).trans <| (StableHlo.after_of_writes_sub hostOps0 _ hostOps0_writes (by decide)).trans rfl
theorem w4_arg4 : W4 m c (Proc.devRef .tc main_arg4) = a4 m c :=
  (W4_of_ne m c main_arg4 (by decide)).trans <| (StableHlo.after_of_writes_sub hostOps1 _ hostOps1_writes (by decide)).trans <|
  (W2_of_ne m c main_arg4 (by decide)).trans <| (StableHlo.after_of_writes_sub hostOps0 _ hostOps0_writes (by decide)).trans rfl
theorem v14_eq : (Frm.V5 m c main_v14 : FVec Ideal S1024x1024 .bf16) = truncf .bf16 (transpose S1024x1024 [1, 0] (a3 m c) transposes_S1024x1024_S1024x1024_1_0) bitsLt_bf16_f32 := by
  show StableHlo.after hostOps2 (W4 m c) (Proc.devRef .tc main_v14) = _
  after_results
  rw [w4_arg3]
theorem v15_eq : (Frm.V5 m c main_v15 : FVec Ideal S1x1024 .f32) = shapeCast S1x1024 (a4 m c) shapeCasts_S1024_S1x1024 := by
  show StableHlo.after hostOps2 (W4 m c) (Proc.devRef .tc main_v15) = _
  after_results
  rw [w4_arg4]
  rfl
theorem v16_eq : (Frm.V5 m c main_v16 : FVec Ideal S8192x1024 .bf16) = shapeCast S8192x1024 ((dat1 (Frm.V3 m) q1 c).arrAt 3 cfg1.N) shapeCasts_S4x2048x1024_S8192x1024 := by
  show StableHlo.after hostOps2 (W4 m c) (Proc.devRef .tc main_v16) = _
  after_results
  exact congrArg (fun x => shapeCast S8192x1024 x shapeCasts_S4x2048x1024_S8192x1024) (W4_out m c)
theorem v18_eq : (W7 m c (Proc.devRef .tc main_v18) : FVec Ideal S4x2048x1024 .f32) = shapeCast S4x2048x1024 ((dat2 (Frm.V5 m) qFull c).arrAt 3 cfg2.N) shapeCasts_S8192x1024_S4x2048x1024 := by
  show StableHlo.after hostOps3 (W6 m c) (Proc.devRef .tc main_v18) = _
  after_results
  exact congrArg (fun x => shapeCast S4x2048x1024 x shapeCasts_S8192x1024_S4x2048x1024) (W6_arr m c 3)

/-! ## The stages, index by index -/

/-- After the first region, column 1024·j + 64·h + d of row 2048·n + l is feature (h, j, d) of token (n, l): the
    region's affine map over the reordered weight and bias, read back in the original order. -/
theorem qkv_at (n : Fin 4) (l : Fin 2048) (j : Fin 3) (h : Fin 16) (d : Fin 64) :
    (dat0 (Frm.V1 m) qFull c).arrAt 3 cfg0.N (ix2 (row n l) (kfeat j h d))
      = Cert.Mha.projOf (a0 m c) (a1 m c) (a2 m c) n l (Cert.Mha.feat h j d) := by
  refine (congrFun (final0 (Frm.V1 m) qFull c) _).trans ?_
  rw [v9_eq, v7_eq, v8_eq]
  refine (G0_apply _ _ _ _ _).trans ?_
  show _ = (∑ k : Fin 1024, a0 m c (ix3 n l k) * a1 m c (ix2 (Cert.Mha.feat h j d) k)) + a2 m c (ix1 (Cert.Mha.feat h j d))
  refine congrArg₂ (· + ·) (Finset.sum_congr rfl fun k _ => ?_) (bqkv_stage (a2 m c) j h d)
  exact congrArg₂ (· * ·) (x_stage (a0 m c) n l k) (wqkv_stage (a1 m c) k j h d)

/-- The same of the array the second region reads: the first region's result split into sequences again. -/
theorem proj_at (n : Fin 4) (l : Fin 2048) (j : Fin 3) (h : Fin 16) (d : Fin 64) :
    (Frm.V3 m c main_v11 : S4x2048x3072.Idx → EReal) (ix3 n l (kfeat j h d))
      = Cert.Mha.projOf (a0 m c) (a1 m c) (a2 m c) n l (Cert.Mha.feat h j d) :=
  (congrFun (v11_eq m c) _).trans ((qkv_unflatten _ n l _).trans (qkv_at m c n l j h d))

/-! ## Heads, pairs of heads and columns -/

/-- Head e of the pair hp is head 2·hp + e. -/
def pairHead (hp : Fin 8) (e : Fin 2) : Fin 16 := ⟨2 * hp.val + e.val, by omega⟩

/-- Lane 64·e + d of pair hp in part j is lane d of head 2·hp + e in part j. -/
theorem partCol_eq (j : Fin 3) (hp : Fin 8) (e : Fin 2) (d : Fin 64) : partCol j hp e d = kfeat j (pairHead hp e) d :=
  Fin.ext (by
    show 1024 * j.val + 128 * hp.val + 64 * e.val + d.val = 1024 * j.val + 64 * (2 * hp.val + e.val) + d.val
    omega)

/-- Context column 128·hp + 64·e + d belongs to head 2·hp + e … -/
theorem headOf_pairCol (hp : Fin 8) (e : Fin 2) (d : Fin 64) : Cert.Mha.headOf (pairCol hp e d) = pairHead hp e :=
  Fin.ext (by
    have := e.isLt; have := d.isLt
    show (128 * hp.val + 64 * e.val + d.val) / 64 = 2 * hp.val + e.val
    omega)

/-- … and is its lane d. -/
theorem laneOf_pairCol (hp : Fin 8) (e : Fin 2) (d : Fin 64) : Cert.Mha.laneOf (pairCol hp e d) = d :=
  Fin.ext (by
    have := e.isLt; have := d.isLt
    show (128 * hp.val + 64 * e.val + d.val) % 64 = d.val
    omega)

/-! ## The second region: each head's context -/

/-- The array the second region reads, as a function of its indices. -/
abbrev qkvArr : S4x2048x3072.Idx → EReal := Frm.V3 m c main_v11

/-- Lane 64·e + d of pair hp in part j of token (n, l) is the projection's feature (2·hp + e, j, d). -/
theorem qkvArr_at (n : Fin 4) (l : Fin 2048) (j : Fin 3) (hp : Fin 8) (e : Fin 2) (d : Fin 64) :
    qkvArr m c (ix3 n l (partCol j hp e d))
      = Cert.Mha.projOf (a0 m c) (a1 m c) (a2 m c) n l (Cert.Mha.feat (pairHead hp e) j d) :=
  (congrArg (fun g => qkvArr m c (ix3 n l g)) (partCol_eq j hp e d)).trans (proj_at m c n l j (pairHead hp e) d)

/-- Head e of pair hp over that array is the specification's context of head 2·hp + e: the scores, row by row, and the
    value lanes are the projection's features of that head. -/
theorem attn_eq (n : Fin 4) (l : Fin 2048) (hp : Fin 8) (e : Fin 2) (d : Fin 64) :
    attn (qkvArr m c) n l hp e d = Cert.Mha.ctx (Cert.Mha.projOf (a0 m c) (a1 m c) (a2 m c)) n l (pairHead hp e) d := by
  have hS : (fun k' : Fin 2048 => (∑ d' : Fin 64, qkvArr m c (ix3 n l (partCol 0 hp e d')) * qkvArr m c (ix3 n k' (partCol 1 hp e d')))
      * Cert.Mha.eighth) = Cert.Mha.score (Cert.Mha.projOf (a0 m c) (a1 m c) (a2 m c)) n (pairHead hp e) l :=
    funext fun k' => congrArg (· * Cert.Mha.eighth) (Finset.sum_congr rfl fun d' _ =>
      congrArg₂ (· * ·) (qkvArr_at m c n l 0 hp e d') (qkvArr_at m c n k' 1 hp e d'))
  exact Finset.sum_congr rfl fun k _ =>
    congrArg₂ (· * ·) (congrArg (fun S => Cert.Mha.weight S k) hS) (qkvArr_at m c n k 2 hp e d)

/-- After the second region, context column 128·hp + 64·e + d of token (n, l) is lane d of head 2·hp + e's context. -/
theorem ctx_at (n : Fin 4) (l : Fin 2048) (hp : Fin 8) (e : Fin 2) (d : Fin 64) :
    (dat1 (Frm.V3 m) q1 c).arrAt 3 cfg1.N (ix3 n l (pairCol hp e d))
      = Cert.Mha.ctx (Cert.Mha.projOf (a0 m c) (a1 m c) (a2 m c)) n l (pairHead hp e) d :=
  (congrFun (final1 (Frm.V3 m) q1 c) _).trans ((G1_apply _ n l hp e d).trans (attn_eq m c n l hp e d))

/-- So every context column holds its own head's lane. -/
theorem ctx_col (n : Fin 4) (l : Fin 2048) (k : Fin 1024) :
    (dat1 (Frm.V3 m) q1 c).arrAt 3 cfg1.N (ix3 n l k)
      = Cert.Mha.ctx (Cert.Mha.projOf (a0 m c) (a1 m c) (a2 m c)) n l (Cert.Mha.headOf k) (Cert.Mha.laneOf k) := by
  obtain ⟨hp, e, d, rfl⟩ := pairCol_surj k
  rw [headOf_pairCol, laneOf_pairCol]
  exact ctx_at m c n l hp e d

/-! ## The third region and the result -/

/-- After the third region, row 2048·n + l holds the result's token (n, l): the last affine map over the contexts. -/
theorem out_at (n : Fin 4) (l : Fin 2048) (o : Fin 1024) :
    (dat2 (Frm.V5 m) qFull c).arrAt 3 cfg2.N (ix2 (row n l) o)
      = Cert.Mha.out (Cert.Mha.projOf (a0 m c) (a1 m c) (a2 m c)) (fun o k => a3 m c (ix2 o k)) (fun o => a4 m c (ix1 o)) n l o := by
  refine (congrFun (final2 (Frm.V5 m) qFull c) _).trans ?_
  rw [v16_eq, v14_eq, v15_eq]
  refine (G2_apply _ _ _ _ _).trans ?_
  show _ = (∑ k : Fin 1024, Cert.Mha.ctx (Cert.Mha.projOf (a0 m c) (a1 m c) (a2 m c)) n l (Cert.Mha.headOf k) (Cert.Mha.laneOf k)
      * a3 m c (ix2 o k)) + a4 m c (ix1 o)
  refine congrArg₂ (· + ·) (Finset.sum_congr rfl fun k _ => ?_) (bout_stage (a4 m c) o)
  exact congrArg₂ (· * ·) ((ctx_flatten _ n l k).trans (ctx_col m c n l k)) (wout_stage (a3 m c) k o)

/-- What the program ends with: the multi-head attention layer of the five argument arrays. -/
theorem kernel_value :
    (W7 m c (Proc.devRef .tc main_v18) : FVec Ideal S4x2048x1024 .f32)
      = Cert.Mha.mha (a0 m c) (a1 m c) (a2 m c) (a3 m c) (a4 m c) := by
  funext i
  obtain ⟨n, l, o, rfl⟩ : ∃ (n : Fin 4) (l : Fin 2048) (o : Fin 1024), i = ix3 n l o := ⟨i 0, i 1, i 2, eq_ix3 i⟩
  exact (congrFun (v18_eq m c) _).trans ((out_unflatten _ n l o).trans ((out_at m c n l o).trans
    (Cert.Mha.mha_apply (a0 m c) (a1 m c) (a2 m c) (a3 m c) (a4 m c) n l o).symm))

end Cert.KernelIdeal.Final

end
-- ==== Proof.lean ====
/-
  The certificate of a multi-head self-attention layer (batch 4, 2048 tokens of width 1024, 16 heads of 64 lanes):
  a Pallas implementation in three kernels — the fused query/key/value projection as a row-tiled matrix product plus
  bias, attention over blocks of 512 queries and pairs of heads packed in 128 lanes, the output projection as another
  row-tiled product plus bias — against the plain jnp layer.

  FRAMES. Each kernel region's body loads its three input tiles whole, computes, and stores its output tile whole; what
  it leaves is one function of the input tiles, and the pipeline writes each output tile back to a block of the
  output array that no other grid point touches. @main is four stretches of host operations around the three regions;
  the contents of the core's buffers at the eight boundaries are a fold from the launch memory, the run ends in the
  last of them, and no stretch or region writes an argument array. In the attention region the three input windows
  read ONE array, whose ownership is dealt to them on entry — a half and two quarters — and joined back on exit. The
  same text proves the frame of the program as printed and of its idealization; the reference is host operations
  only, and its frame is its run with the result dropped.

  VALUE. On the extended reals (floats exact, format changes the identity) both programs compute ONE function of the
  five argument arrays, `Cert.Mha.mha`: the kernel's side by reading each region's output array block by block as a
  function of its input arrays and each host stretch as a re-layout — the kernel orders the 3072 projected features
  part-major where the reference orders them head-major, and computes each head's context transposed —; the
  reference's side one host operation at a time. The two meet with no algebra beyond re-indexing sums and the
  commutativity of multiplication, so the precondition (finite inputs) is never opened. The ideal pass rewrote nothing,
  so the idealization claim is trivial.
-/
import proofs.«166842_j9775345565972_2_alg».proof.Defs
import proofs.«166842_j9775345565972_2_alg».proof.Proof.Gen.Kernel
import proofs.«166842_j9775345565972_2_alg».proof.Proof.Gen.KernelIdeal
import proofs.«166842_j9775345565972_2_alg».proof.Proof.Gen.ReferenceIdeal
import proofs.«166842_j9775345565972_2_alg».proof.Proof.Gen.Pre_finite_inputs
import proofs.«166842_j9775345565972_2_alg».proof.Proof.Gen.ReferenceIdeal.Read
import proofs.«166842_j9775345565972_2_alg».proof.Proof.FrmBRun
import proofs.«166842_j9775345565972_2_alg».proof.Proof.FrmRun
import proofs.«166842_j9775345565972_2_alg».proof.Proof.RefValue
import proofs.«166842_j9775345565972_2_alg».proof.Proof.FinalAll
import Idealize.ShloMosaic.Adequacy
import Idealize.ShloMosaic.Init

noncomputable section

namespace Cert.Proof

open Idealize.ShloMosaic Idealize.ShloMosaic.TcCoe Idealize.SL.Sem

/-- The program as printed runs to the end and leaves its arguments as launched. -/
theorem frame_kernel : Cert.frame_Kernel (hKernel := Cert.Kernel.Gen.facts) (hPre_finite_inputs := Cert.Pre_finite_inputs.Gen.facts) :=
  fun m ρ _ => Cert.Kernel.Frm.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Frm.frame m ρ

/-- The reference is host operations only: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the attention layer of the arguments in
    their result buffer: the kernel's program by its run's last boundary read back (`kernel_value`), the reference by
    its run's composed term read one operation at a time (`ref_is_mha`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Mha.mha (Cert.KernelIdeal.Final.a0 m c) (Cert.KernelIdeal.Final.a1 m c) (Cert.KernelIdeal.Final.a2 m c)
      (Cert.KernelIdeal.Final.a3 m c) (Cert.KernelIdeal.Final.a4 m c), ?_, ?_⟩
  · refine (θ_run Cert.KernelIdeal.defs _ _).mono (fun r h c => ⟨?_, ?_, ?_, ?_, ?_, ?_⟩) (Cert.KernelIdeal.Frm.run_all m ρ)
    · exact (h c _ (Cert.KernelIdeal.Frm.mem_uc Cert.KernelIdeal.main_v18 (by decide))).trans (Cert.KernelIdeal.Final.kernel_value m c)
    · exact (h c _ (Cert.KernelIdeal.Frm.mem_uc Cert.KernelIdeal.main_arg0 (by decide))).trans (Cert.KernelIdeal.Frm.W7_main_arg0 m c)
    · exact (h c _ (Cert.KernelIdeal.Frm.mem_uc Cert.KernelIdeal.main_arg1 (by decide))).trans (Cert.KernelIdeal.Frm.W7_main_arg1 m c)
    · exact (h c _ (Cert.KernelIdeal.Frm.mem_uc Cert.KernelIdeal.main_arg2 (by decide))).trans (Cert.KernelIdeal.Frm.W7_main_arg2 m c)
    · exact (h c _ (Cert.KernelIdeal.Frm.mem_uc Cert.KernelIdeal.main_arg3 (by decide))).trans (Cert.KernelIdeal.Frm.W7_main_arg3 m c)
    · exact (h c _ (Cert.KernelIdeal.Frm.mem_uc Cert.KernelIdeal.main_arg4 (by decide))).trans (Cert.KernelIdeal.Frm.W7_main_arg4 m c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, Cert.ReferenceIdeal.RefValue.ref_is_mha,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
